-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S30000x1433 : S_.BroadcastsInDim S30000x1433 (![] : Fin 0 → Fin S30000x1433.rank)
  reducesTo_S30000x1433_S_d0_1 : S30000x1433.ReducesTo [0, 1] S_
  h_S_ : 0 < S_.numel
  bcast_S_S480000 : S_.BroadcastsInDim S480000 (![] : Fin 0 → Fin S480000.rank)
  reducesTo_S480000_S_d0 : S480000.ReducesTo [0] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S7 .f32) (main_v33 : IVec S_ 1) : IVec S_ 1 :=
  let main_v34 : FVec F S7 .f32 := Host.absf main_arg9
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg6 : FVec F S512x128 .f32) (main_arg7 : FVec F S128 .f32) (main_arg8 : FVec F S128x7 .f32) (main_arg9 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x7 .f32 := Host.absf main_arg8
  let main_cst_10 : FVec F S_ .f32 := constant S_ .f32 0x7F800000#32
  let main_v30 : FVec F S128x7 .f32 := broadcastInDim S128x7 ![] bcast_S_S128x7 main_cst_10
  let main_v31 : IVec S128x7 1 := cmpf .olt main_v29 main_v30
  let main_c_11 : IVec S_ 1 := constantI S_ 1 1#1
  let main_v32 : IVec S_ 1 := (fun x v => Host.reduce IntOp.andi x v reducesTo_S128x7_S_d0_1 h_S_) main_v31 main_c_11
  let main_v33 : IVec S_ 1 := andi main_v28 main_v32
  fn_part2 (F := F) main_arg9 main_v33

def fn {F : FTy → Type} [FloatOps F] (main_arg0 : FVec F S30000x1433 .f32) (main_arg1 : IVec S480000 32) (main_arg2 : IVec S480000 32) (main_arg3 : FVec F S480000 .f32) (main_arg4 : FVec F S1433x512 .f32) (main_arg5 : FVec F S512 .f32) (main_arg6 : FVec F S512x128 .f32) (main_arg7 : FVec F S128 .f32) (main_arg8 : FVec F S128x7 .f32) (main_arg9 : FVec F S7 .f32) : IVec S_ 1 :=
  let main_v0 : FVec F S30000x1433 .f32 := Host.absf main_arg0
  let main_cst : FVec F S_ .f32 := constant S_ .f32 0x7F800000#32
  let main_v1 : FVec F S30000x1433 .f32 := broadcastInDim S30000x1433 ![] bcast_S_S30000x1433 main_cst
  let main_v2 : IVec S30000x1433 1 := cmpf .olt main_v0 main_v1
  let main_c : IVec S_ 1 := constantI S_ 1 1#1
  let main_v3 : IVec S_ 1 := (fun x v => Host.reduce IntOp.andi x v reducesTo_S30000x1433_S_d0_1 h_S_) main_v2 main_c
  let main_v4 : FVec F S480000 .f32 := Host.absf main_arg3
  let main_cst_0 : FVec F S_ .f32 := constant S_ .f32 0x7F800000#32
  let main_v5 : FVec F S480000 .f32 := broadcastInDim S480000 ![] bcast_S_S480000 main_cst_0
  let main_v6 : IVec S480000 1 := cmpf .olt main_v4 main_v5
  let main_c_1 : IVec S_ 1 := constantI S_ 1 1#1
  let main_v7 : IVec S_ 1 := (fun x v => Host.reduce IntOp.andi x v reducesTo_S480000_S_d0 h_S_) main_v6 main_c_1
  let main_v8 : IVec S_ 1 := andi main_v3 main_v7
  let main_v9 : FVec F S1433x512 .f32 := Host.absf main_arg4
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S_ : Shape := ⟨0, ![]⟩
abbrev S30000x512 : Shape := ⟨2, ![30000, 512]⟩
abbrev S1200x1433 : Shape := ⟨2, ![1200, 1433]⟩
abbrev S1200x512 : Shape := ⟨2, ![1200, 512]⟩
abbrev S480000x1 : Shape := ⟨2, ![480000, 1]⟩
abbrev S480000x512 : Shape := ⟨2, ![480000, 512]⟩
abbrev S1x512 : Shape := ⟨2, ![1, 512]⟩
abbrev S1x128 : Shape := ⟨2, ![1, 128]⟩
abbrev S30000x128 : Shape := ⟨2, ![30000, 128]⟩
abbrev S1200x128 : Shape := ⟨2, ![1200, 128]⟩
abbrev S480000x128 : Shape := ⟨2, ![480000, 128]⟩
abbrev S1x7 : Shape := ⟨2, ![1, 7]⟩
abbrev S30000x7 : Shape := ⟨2, ![30000, 7]⟩
abbrev S1200x7 : Shape := ⟨2, ![1200, 7]⟩

abbrev nBuf : Space → Nat
  | .hbm => 56
  | .vmem => 19
  | .smem => 0
  | _ => 0

abbrev bufTy : (tb : Table) → Fin (tcTables nBuf tb) → BufTy
  | .hbm, ⟨0, _⟩ => ⟨S30000x1433, .f32⟩
  | .hbm, ⟨1, _⟩ => ⟨S480000, .i32⟩
  | .hbm, ⟨2, _⟩ => ⟨S480000, .i32⟩
  | .hbm, ⟨3, _⟩ => ⟨S480000, .f32⟩
  | .hbm, ⟨4, _⟩ => ⟨S1433x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S1433x512, .bf16⟩
  | .hbm, ⟨11, _⟩ => ⟨S512x128, .bf16⟩
  | .hbm, ⟨12, _⟩ => ⟨S128x7, .bf16⟩
  | .hbm, ⟨13, _⟩ => ⟨S_, .f32⟩
  | .hbm, ⟨14, _⟩ => ⟨S128, .f32⟩
  | .hbm, ⟨15, _⟩ => ⟨S30000x512, .bf16⟩
  | .hbm, ⟨16, _⟩ => ⟨S480000x1, .f32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x512, .bf16⟩
  | .hbm, ⟨26, _⟩ => ⟨S480000x512, .f32⟩
  | .hbm, ⟨27, _⟩ => ⟨S480000x512, .f32⟩
  | .hbm, ⟨28, _⟩ => ⟨S480000x512, .f32⟩
  | .hbm, ⟨29, _⟩ => ⟨S_, .f32⟩
  | .hbm, ⟨30, _⟩ => ⟨S30000x512, .f32⟩
  | .hbm, ⟨31, _⟩ => ⟨S480000x1, .i32⟩
  | .hbm, ⟨32, _⟩ => ⟨S30000x512, .f32⟩
  | .hbm, ⟨33, _⟩ => ⟨S1x512, .f32⟩
  | .hbm, ⟨34, _⟩ => ⟨S1x128, .f32⟩
  | .hbm, ⟨35, _⟩ => ⟨S30000x128, .bf16⟩
  | .hbm, ⟨36, _⟩ => ⟨S480000x1, .f32⟩
  | .hbm, ⟨37, _⟩ => ⟨S_, .i32⟩
  | .hbm, ⟨38, _⟩ => ⟨S480000, .i32⟩
  | .hbm, ⟨39, _⟩ => ⟨S480000, .i1⟩
  | .hbm, ⟨40, _⟩ => ⟨S_, .i32⟩
  | .hbm, ⟨41, _⟩ => ⟨S480000, .i32⟩
  | .hbm, ⟨42, _⟩ => ⟨S480000, .i32⟩
  | .hbm, ⟨43, _⟩ => ⟨S480000, .i32⟩
  | .hbm, ⟨44, _⟩ => ⟨S480000x1, .i32⟩
  | .hbm, ⟨45, _⟩ => ⟨S480000x128, .bf16⟩
  | .hbm, ⟨46, _⟩ => ⟨S480000x128, .f32⟩
  | .hbm, ⟨47, _⟩ => ⟨S480000x128, .f32⟩
  | .hbm, ⟨48, _⟩ => ⟨S480000x128, .f32⟩
  | .hbm, ⟨49, _⟩ => ⟨S_, .f32⟩
  | .hbm, ⟨50, _⟩ => ⟨S30000x128, .f32⟩
  | .hbm, ⟨51, _⟩ => ⟨S480000x1, .i32⟩
  | .hbm, ⟨52, _⟩ => ⟨S30000x128, .f32⟩
  | .hbm, ⟨53, _⟩ => ⟨S1x128, .f32⟩
  | .hbm, ⟨54, _⟩ => ⟨S1x7, .f32⟩
  | .hbm, ⟨55, _⟩ => ⟨S30000x7, .f32⟩
  | .local _ .vmem, ⟨0, _⟩ => ⟨S1200x1433, .f32⟩
  | .local _ .vmem, ⟨1, _⟩ => ⟨S1200x1433, .f32⟩
  | .local _ .vmem, ⟨2, _⟩ => ⟨S1433x512, .bf16⟩
  | .local _ .vmem, ⟨3, _⟩ => ⟨S1200x512, .bf16⟩
  | .local _ .vmem, ⟨4, _⟩ => ⟨S1200x512, .bf16⟩
  | .local _ .vmem, ⟨5, _⟩ => ⟨S1200x512, .f32⟩
  | .local _ .vmem, ⟨6, _⟩ => ⟨S1200x512, .f32⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S1200x128, .bf16⟩
  | .local _ .vmem, ⟨11, _⟩ => ⟨S1200x128, .bf16⟩
  | .local _ .vmem, ⟨12, _⟩ => ⟨S1200x128, .f32⟩
  | .local _ .vmem, ⟨13, _⟩ => ⟨S1200x128, .f32⟩
  | .local _ .vmem, ⟨14, _⟩ => ⟨S1x128, .f32⟩
  | .local _ .vmem, ⟨15, _⟩ => ⟨S128x7, .bf16⟩
  | .local _ .vmem, ⟨16, _⟩ => ⟨S1x7, .f32⟩
  | .local _ .vmem, ⟨17, _⟩ => ⟨S1200x7, .f32⟩
  | .local _ .vmem, ⟨18, _⟩ => ⟨S1200x7, .f32⟩
  | _, _ => ⟨S30000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1200x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1200x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x7 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x7 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1200x7 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  bcast_S_S128 : S_.BroadcastsInDim S128 (![] : Fin 0 → Fin S128.rank)
  inb_S1200x1433_S1200x1433_0_0 : ∀ a, (![0, 0] : Fin 2 → Nat) a + S1200x1433.size a ≤ S1200x1433.size a
  h_S1200x1433 : 0 < S1200x1433.numel
  inb_S1433x512_S1433x512_0_0 : ∀ a, (![0, 0] : Fin 2 → Nat) a + S1433x512.size a ≤ S1433x512.size a
  h_S1433x512 : 0 < S1433x512.numel
  shapeCasts_S1433x512_S1433x512 : S1433x512.ShapeCasts S1433x512
  inb_S1200x512_S1200x512_0_0 : ∀ a, (![0, 0] : Fin 2 → Nat) a + S1200x512.size a ≤ S1200x512.size a
  h_S1200x512 : 0 < S1200x512.numel
  packedbf16_S1200x512_S1200x512_0_0 : (Rect.unit (s := S1200x512) ![0, 0] S1200x512.size inb_S1200x512_S1200x512_0_0).PackedRows (EltTy.packing .bf16)
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  shapeCasts_S512_S1x512 : S512.ShapeCasts S1x512
  shapeCasts_S128_S1x128 : S128.ShapeCasts S1x128
  shapeCasts_S1200x512_S1200x512 : S1200x512.ShapeCasts S1200x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1200x512 : S1x512.Broadcasts S1200x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1200x128 : S1x128.Broadcasts S1200x128
  inb_S1200x128_S1200x128_0_0 : ∀ a, (![0, 0] : Fin 2 → Nat) a + S1200x128.size a ≤ S1200x128.size a
  h_S1200x128 : 0 < S1200x128.numel
  packedbf16_S1200x128_S1200x128_0_0 : (Rect.unit (s := S1200x128) ![0, 0] S1200x128.size inb_S1200x128_S1200x128_0_0).PackedRows (EltTy.packing .bf16)
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  shapeCasts_S7_S1x7 : S7.ShapeCasts S1x7
  shapeCasts_S1200x128_S1200x128 : S1200x128.ShapeCasts S1200x128
  inb_S128x7_S128x7_0_0 : ∀ a, (![0, 0] : Fin 2 → Nat) a + S128x7.size a ≤ S128x7.size a
  h_S128x7 : 0 < S128x7.numel
  shapeCasts_S128x7_S128x7 : S128x7.ShapeCasts S128x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S1200x7 : S1x7.Broadcasts S1200x7
  inb_S1200x7_S1200x7_0_0 : ∀ a, (![0, 0] : Fin 2 → Nat) a + S1200x7.size a ≤ S1200x7.size a
  h_S1200x7 : 0 < S1200x7.numel
  dot_S1200x1433_S1433x512_S1200x512_1_0_0_1_n_n_wf : DotDims.WF S1200x1433 S1433x512 S1200x512 [1] [0] [0] [1] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1
  dot_S1200x512_S512x128_S1200x128_1_0_0_1_n_n_wf : DotDims.WF S1200x512 S512x128 S1200x128 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S1200x128_S128x7_S1200x7_1_0_0_1_n_n_wf : DotDims.WF S1200x128 S128x7 S1200x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x1433.size a ≤ S30000x1433.size a
  hwx0_0 : ∀ i : grid0.Coords, EltTy.bits .f32 = 32 ∨ (Rect.block (s := S30000x1433) S1200x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .bf16 = 32 ∨ (Rect.block (s := S1433x512) S1433x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x512.size a ≤ S30000x512.size a
  hwx0_2 : ∀ i : grid0.Coords, EltTy.bits .bf16 = 32 ∨ (Rect.block (s := S30000x512) S1200x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1200x512.size a ≤ S30000x512.size a
  hwx1_0 : ∀ i : grid1.Coords, EltTy.bits .f32 = 32 ∨ (Rect.block (s := S30000x512) S1200x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .bf16 = 32 ∨ (Rect.block (s := S512x128) S512x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1200x128.size a ≤ S30000x128.size a
  hwx1_4 : ∀ i : grid1.Coords, EltTy.bits .bf16 = 32 ∨ (Rect.block (s := S30000x128) S1200x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1200x128.size a ≤ S30000x128.size a
  hwx2_0 : ∀ i : grid2.Coords, EltTy.bits .f32 = 32 ∨ (Rect.block (s := S30000x128) S1200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x7.size a ≤ S128x7.size a
  hwx2_2 : ∀ i : grid2.Coords, EltTy.bits .bf16 = 32 ∨ (Rect.block (s := S128x7) S128x7.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x7.size a ≤ S1x7.size a
  hwx2_3 : ∀ i : grid2.Coords, EltTy.bits .f32 = 32 ∨ (Rect.block (s := S1x7) S1x7.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1200x7.size a ≤ S30000x7.size a
  hwx2_4 : ∀ i : grid2.Coords, EltTy.bits .f32 = 32 ∨ (Rect.block (s := S30000x7) S1200x7.size (cc2_transform_4 i) (hinb2_4 i)).WholeWords (EltTy.packing .f32)

variable [Facts₀]

def dot_S1200x1433_S1433x512_S1200x512_1_0_0_1_n_n : DotDims S1200x1433 S1433x512 S1200x512 where
  lhsContracting := [1]
  rhsContracting := [0]
  lhsNonContracting := [0]
  rhsNonContracting := [1]
  lhsBatch := []
  rhsBatch := []
  wf := dot_S1200x1433_S1433x512_S1200x512_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf
def dot_S1200x512_S512x128_S1200x128_1_0_0_1_n_n : DotDims S1200x512 S512x128 S1200x128 where
  lhsContracting := [1]
  rhsContracting := [0]
  lhsNonContracting := [0]
  rhsNonContracting := [1]
  lhsBatch := []
  rhsBatch := []
  wf := dot_S1200x512_S512x128_S1200x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S1200x128_S128x7_S1200x7_1_0_0_1_n_n : DotDims S1200x128 S128x7 S1200x7 where
  lhsContracting := [1]
  rhsContracting := [0]
  lhsNonContracting := [0]
  rhsNonContracting := [1]
  lhsBatch := []
  rhsBatch := []
  wf := dot_S1200x128_S128x7_S1200x7_1_0_0_1_n_n_wf

abbrev win0_0 : Pipeline.Window sig grid0 :=
  Pipeline.Window.ofSpec (Memref.whole main_arg0) S1200x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1200x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S1200x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S1200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S128x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x7.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1200x7.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S30000x512 : Shape := ⟨2, ![30000, 512]⟩
abbrev S480000x1 : Shape := ⟨2, ![480000, 1]⟩
abbrev S_ : Shape := ⟨0, ![]⟩
abbrev S480000x512 : Shape := ⟨2, ![480000, 512]⟩
abbrev S1x512 : Shape := ⟨2, ![1, 512]⟩
abbrev S30000x128 : Shape := ⟨2, ![30000, 128]⟩
abbrev S480000x128 : Shape := ⟨2, ![480000, 128]⟩
abbrev S1x128 : Shape := ⟨2, ![1, 128]⟩
abbrev S30000x7 : Shape := ⟨2, ![30000, 7]⟩
abbrev S1x7 : Shape := ⟨2, ![1, 7]⟩

abbrev nBuf : Space → Nat
  | .hbm => 70
  | .vmem => 0
  | .smem => 0
  | _ => 0

abbrev bufTy : (tb : Table) → Fin (tcTables nBuf tb) → BufTy
  | .hbm, ⟨0, _⟩ => ⟨S30000x1433, .f32⟩
  | .hbm, ⟨1, _⟩ => ⟨S480000, .i32⟩
  | .hbm, ⟨2, _⟩ => ⟨S480000, .i32⟩
  | .hbm, ⟨3, _⟩ => ⟨S480000, .f32⟩
  | .hbm, ⟨4, _⟩ => ⟨S1433x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S30000x512, .f32⟩
  | .hbm, ⟨11, _⟩ => ⟨S480000x1, .f32⟩
  | .hbm, ⟨12, _⟩ => ⟨S_, .i32⟩
  | .hbm, ⟨13, _⟩ => ⟨S480000, .i32⟩
  | .hbm, ⟨14, _⟩ => ⟨S480000, .i1⟩
  | .hbm, ⟨15, _⟩ => ⟨S_, .i32⟩
  | .hbm, ⟨16, _⟩ => ⟨S480000, .i32⟩
  | .hbm, ⟨17, _⟩ => ⟨S480000, .i32⟩
  | .hbm, ⟨18, _⟩ => ⟨S480000, .i32⟩
  | .hbm, ⟨19, _⟩ => ⟨S480000x1, .i32⟩
  | .hbm, ⟨20, _⟩ => ⟨S480000x512, .f32⟩
  | .hbm, ⟨21, _⟩ => ⟨S480000x512, .f32⟩
  | .hbm, ⟨22, _⟩ => ⟨S480000x512, .f32⟩
  | .hbm, ⟨23, _⟩ => ⟨S_, .f32⟩
  | .hbm, ⟨24, _⟩ => ⟨S30000x512, .f32⟩
  | .hbm, ⟨25, _⟩ => ⟨S480000x1, .i32⟩
  | .hbm, ⟨26, _⟩ => ⟨S30000x512, .f32⟩
  | .hbm, ⟨27, _⟩ => ⟨S1x512, .f32⟩
  | .hbm, ⟨28, _⟩ => ⟨S30000x512, .f32⟩
  | .hbm, ⟨29, _⟩ => ⟨S30000x512, .f32⟩
  | .hbm, ⟨30, _⟩ => ⟨S_, .f32⟩
  | .hbm, ⟨31, _⟩ => ⟨S_, .f32⟩
  | .hbm, ⟨32, _⟩ => ⟨S30000x512, .f32⟩
  | .hbm, ⟨33, _⟩ => ⟨S30000x512, .i1⟩
  | .hbm, ⟨34, _⟩ => ⟨S_, .f32⟩
  | .hbm, ⟨35, _⟩ => ⟨S30000x512, .f32⟩
  | .hbm, ⟨36, _⟩ => ⟨S30000x512, .f32⟩
  | .hbm, ⟨37, _⟩ => ⟨S30000x512, .f32⟩
  | .hbm, ⟨38, _⟩ => ⟨S30000x128, .f32⟩
  | .hbm, ⟨39, _⟩ => ⟨S480000x1, .f32⟩
  | .hbm, ⟨40, _⟩ => ⟨S_, .i32⟩
  | .hbm, ⟨41, _⟩ => ⟨S480000, .i32⟩
  | .hbm, ⟨42, _⟩ => ⟨S480000, .i1⟩
  | .hbm, ⟨43, _⟩ => ⟨S_, .i32⟩
  | .hbm, ⟨44, _⟩ => ⟨S480000, .i32⟩
  | .hbm, ⟨45, _⟩ => ⟨S480000, .i32⟩
  | .hbm, ⟨46, _⟩ => ⟨S480000, .i32⟩
  | .hbm, ⟨47, _⟩ => ⟨S480000x1, .i32⟩
  | .hbm, ⟨48, _⟩ => ⟨S480000x128, .f32⟩
  | .hbm, ⟨49, _⟩ => ⟨S480000x128, .f32⟩
  | .hbm, ⟨50, _⟩ => ⟨S480000x128, .f32⟩
  | .hbm, ⟨51, _⟩ => ⟨S_, .f32⟩
  | .hbm, ⟨52, _⟩ => ⟨S30000x128, .f32⟩
  | .hbm, ⟨53, _⟩ => ⟨S480000x1, .i32⟩
  | .hbm, ⟨54, _⟩ => ⟨S30000x128, .f32⟩
  | .hbm, ⟨55, _⟩ => ⟨S1x128, .f32⟩
  | .hbm, ⟨56, _⟩ => ⟨S30000x128, .f32⟩
  | .hbm, ⟨57, _⟩ => ⟨S30000x128, .f32⟩
  | .hbm, ⟨58, _⟩ => ⟨S_, .f32⟩
  | .hbm, ⟨59, _⟩ => ⟨S_, .f32⟩
  | .hbm, ⟨60, _⟩ => ⟨S30000x128, .f32⟩
  | .hbm, ⟨61, _⟩ => ⟨S30000x128, .i1⟩
  | .hbm, ⟨62, _⟩ => ⟨S_, .f32⟩
  | .hbm, ⟨63, _⟩ => ⟨S30000x128, .f32⟩
  | .hbm, ⟨64, _⟩ => ⟨S30000x128, .f32⟩
  | .hbm, ⟨65, _⟩ => ⟨S30000x128, .f32⟩
  | .hbm, ⟨66, _⟩ => ⟨S30000x7, .f32⟩
  | .hbm, ⟨67, _⟩ => ⟨S1x7, .f32⟩
  | .hbm, ⟨68, _⟩ => ⟨S30000x7, .f32⟩
  | .hbm, ⟨69, _⟩ => ⟨S30000x7, .f32⟩
  | _, _ => ⟨S30000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  bcast_S512_S1x512_1 : S512.BroadcastsInDim S1x512 (![1] : Fin 1 → Fin S1x512.rank)
  bcast_S1x512_S30000x512_0_1 : S1x512.BroadcastsInDim S30000x512 (![0, 1] : Fin 2 → Fin S30000x512.rank)
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S7_S1x7_1 : S7.BroadcastsInDim S1x7 (![1] : Fin 1 → Fin S1x7.rank)
  bcast_S1x7_S30000x7_0_1 : S1x7.BroadcastsInDim S30000x7 (![0, 1] : Fin 2 → Fin S30000x7.rank)
  dot_S30000x1433_S1433x512_S30000x512_1_0_0_1_n_n_wf : DotDims.WF S30000x1433 S1433x512 S30000x512 [1] [0] [0] [1] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1
  dot_S30000x512_S512x128_S30000x128_1_0_0_1_n_n_wf : DotDims.WF S30000x512 S512x128 S30000x128 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S30000x128_S128x7_S30000x7_1_0_0_1_n_n_wf : DotDims.WF S30000x128 S128x7 S30000x7 [1] [0] [0] [1] [] []

variable [Facts₀]

def dot_S30000x1433_S1433x512_S30000x512_1_0_0_1_n_n : DotDims S30000x1433 S1433x512 S30000x512 where
  lhsContracting := [1]
  rhsContracting := [0]
  lhsNonContracting := [0]
  rhsNonContracting := [1]
  lhsBatch := []
  rhsBatch := []
  wf := dot_S30000x1433_S1433x512_S30000x512_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf
def dot_S30000x512_S512x128_S30000x128_1_0_0_1_n_n : DotDims S30000x512 S512x128 S30000x128 where
  lhsContracting := [1]
  rhsContracting := [0]
  lhsNonContracting := [0]
  rhsNonContracting := [1]
  lhsBatch := []
  rhsBatch := []
  wf := dot_S30000x512_S512x128_S30000x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S30000x128_S128x7_S30000x7_1_0_0_1_n_n : DotDims S30000x128 S128x7 S30000x7 where
  lhsContracting := [1]
  rhsContracting := [0]
  lhsNonContracting := [0]
  rhsNonContracting := [1]
  lhsBatch := []
  rhsBatch := []
  wf := dot_S30000x128_S128x7_S30000x7_1_0_0_1_n_n_wf

class Facts : Prop extends Facts₀ where

variable [Facts]
-- ==== Proof.KRun.lean ====
/-
  The idealized kernel's run with its RESULT named.  Every weakly fair execution of the program terminates without a
  fault; the final memory holds, at every buffer the run does not scope, the contents the last segment boundary
  names (`W6`: the launch memory folded through the three stretches of host operations and the three kernel
  regions, each region's output array at what its write-backs leave).  Read at the result buffer this names the
  result; read at the ten argument buffers it gives them back unchanged.
-/
import proofs.«145313_j19756849561729_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents there, the arguments end as launched. -/
theorem run_val : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Hand

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibDenseLayer.lean ====
/-
  A dense layer with a leaky rectifier in front, over the extended reals:
      out (i, j) = (∑ k, φ (agg (i, k) + b (0, k)) · w (k, j)) + b' (0, j),
  where φ v is v for v above zero and slope · v otherwise.  Two spellings of φ occur: one selects v where v > 0, the
  other where v ≥ 0; they agree because slope · 0 = 0.  Row i of the result reads row i of `agg` only.
-/
import proofs.«145313_j19756849561729_2_alg».proof.Proof.LibPlainDot
import Idealize.ShloMosaic.Lib.ValueLayout
import Idealize.ShloMosaic.Lib.Pipeline.Value

noncomputable section

namespace Cert.Lib.DenseLayer

open Idealize.ShloMosaic Idealize.ShloMosaic.ValueIdx Cert.Lib.PlainDot

/-- The leaky rectifier that keeps `v` where `v > 0`. -/
def lreluGt (s v : EReal) : EReal := Scalar.select (Ideal.cmp .ogt v 0) v (s * v)
/-- The leaky rectifier that keeps `v` where `v ≥ 0`. -/
def lreluGe (s v : EReal) : EReal := Scalar.select (Ideal.cmp .oge v 0) v (s * v)

/-- The two rectifiers are one function: they differ only in which branch is taken at `v = 0`, where both give `0`. -/
theorem lreluGt_eq_lreluGe (s v : EReal) : lreluGt s v = lreluGe s v := by
  unfold lreluGt lreluGe Ideal.cmp
  rcases lt_trichotomy (0 : EReal) v with h | h | h
  · have h1 : decide (0 < v) = true := decide_eq_true h
    have h2 : decide (0 ≤ v) = true := decide_eq_true h.le
    simp only [h1, h2]
  · subst h
    have h1 : decide ((0 : EReal) < 0) = false := decide_eq_false (lt_irrefl _)
    have h2 : decide ((0 : EReal) ≤ 0) = true := decide_eq_true le_rfl
    simp only [h1, h2, mul_zero]
    show Scalar.select 0#1 (0 : EReal) 0 = Scalar.select 1#1 (0 : EReal) 0
    rw [select_zero, select_one]
  · have h1 : decide (0 < v) = false := decide_eq_false (not_lt.mpr h.le)
    have h2 : decide (0 ≤ v) = false := decide_eq_false (not_le.mpr h)
    simp only [h1, h2]

/-- Bias added along the rows, then the rectifier (the `>` spelling). -/
def actGt {M D : Nat} (s : EReal) (agg : (⟨2, ![M, D]⟩ : Shape).Idx → EReal) (b : (⟨2, ![1, D]⟩ : Shape).Idx → EReal) :
    (⟨2, ![M, D]⟩ : Shape).Idx → EReal :=
  fun i => lreluGt s (agg i + b (ix2 (0 : Fin 1) (i 1)))

/-- The layer: activation, product with the weights, bias along the rows. -/
def layer {M D N : Nat} (s : EReal) (agg : (⟨2, ![M, D]⟩ : Shape).Idx → EReal) (b : (⟨2, ![1, D]⟩ : Shape).Idx → EReal)
    (w : (⟨2, ![D, N]⟩ : Shape).Idx → EReal) (b' : (⟨2, ![1, N]⟩ : Shape).Idx → EReal) : (⟨2, ![M, N]⟩ : Shape).Idx → EReal :=
  fun j => mm (actGt s agg b) w j + b' (ix2 (0 : Fin 1) (j 1))

/-- Row locality of the layer. -/
theorem layer_row {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal) (i : Fin M) (p : Fin M') (j : Fin N)
    (h : ∀ k : Fin D, agg' (ix2 p k) = agg (ix2 i k)) : layer s agg' b w b' (ix2 p j) = layer s agg b w b' (ix2 i j) := by
  show mm (actGt s agg' b) w (ix2 p j) + _ = mm (actGt s agg b) w (ix2 i j) + _
  rw [mm_row (actGt s agg b) (actGt s agg' b) w i p j (fun k => by
    show lreluGt s (agg' (ix2 p k) + _) = lreluGt s (agg (ix2 i k) + _)
    rw [h k]
    rfl)]
  rfl

/-- The vector operations of the activation, at the exact values, are `actGt` at the slope's value: bias row broadcast
    and added, compared with zero, scaled by the slope word, selected, narrowed (the narrowing is the identity). -/
theorem act_payload {M D : Nat} (hb : (⟨2, ![1, D]⟩ : Shape).Broadcasts ⟨2, ![M, D]⟩) (hlt : FTy.bf16.bits < FTy.f32.bits)
    (sl : BitVec 32) (v0 : FVec Ideal ⟨2, ![M, D]⟩ .f32) (v2 : FVec Ideal ⟨2, ![1, D]⟩ .f32) :
    (truncf .bf16 (select (cmpf .ogt (addf v0 (broadcastTo ⟨2, ![M, D]⟩ v2 hb))
        (broadcast ⟨2, ![M, D]⟩ (Scalar.ofBits (F := Ideal) .f32 0x00000000#32)))
      (addf v0 (broadcastTo ⟨2, ![M, D]⟩ v2 hb))
      (mulf (broadcast ⟨2, ![M, D]⟩ (Scalar.ofBits (F := Ideal) .f32 sl)) (addf v0 (broadcastTo ⟨2, ![M, D]⟩ v2 hb)))) hlt
      : FVec Ideal ⟨2, ![M, D]⟩ .bf16)
      = actGt (Ideal.ofBits .f32 sl) v0 v2 := by
  funext i
  obtain ⟨p, q, rfl⟩ : ∃ (p : Fin M) (q : Fin D), i = ix2 p q := ⟨i 0, i 1, eq_ix2 i⟩
  show Scalar.select (Ideal.cmp .ogt (v0 (ix2 p q) + broadcastTo ⟨2, ![M, D]⟩ v2 hb (ix2 p q)) (Ideal.ofBits .f32 0x00000000#32))
      (v0 (ix2 p q) + broadcastTo ⟨2, ![M, D]⟩ v2 hb (ix2 p q))
      (Ideal.ofBits .f32 sl * (v0 (ix2 p q) + broadcastTo ⟨2, ![M, D]⟩ v2 hb (ix2 p q))) = _
  rw [broadcastTo_1b_ab_apply, Ideal.ofBits_zero_f32]
  rfl

/-- The whole payload of the fused layer, at the exact values, is `layer`. -/
theorem layer_payload {M D N : Nat} (hb : (⟨2, ![1, D]⟩ : Shape).Broadcasts ⟨2, ![M, D]⟩)
    (hb' : (⟨2, ![1, N]⟩ : Shape).Broadcasts ⟨2, ![M, N]⟩) (hlt : FTy.bf16.bits < FTy.f32.bits) (sl : BitVec 32)
    (v0 : FVec Ideal ⟨2, ![M, D]⟩ .f32) (v2 : FVec Ideal ⟨2, ![1, D]⟩ .f32) (v12 : FVec Ideal ⟨2, ![D, N]⟩ .bf16)
    (v15 : FVec Ideal ⟨2, ![1, N]⟩ .f32) :
    addf (matmul (F := Ideal) (DotDims.plain M D N) none
        (truncf .bf16 (select (cmpf .ogt (addf v0 (broadcastTo ⟨2, ![M, D]⟩ v2 hb))
            (broadcast ⟨2, ![M, D]⟩ (Scalar.ofBits (F := Ideal) .f32 0x00000000#32)))
          (addf v0 (broadcastTo ⟨2, ![M, D]⟩ v2 hb))
          (mulf (broadcast ⟨2, ![M, D]⟩ (Scalar.ofBits (F := Ideal) .f32 sl)) (addf v0 (broadcastTo ⟨2, ![M, D]⟩ v2 hb)))) hlt)
        v12 (constant (F := Ideal) ⟨2, ![M, N]⟩ .f32 0x00000000#32))
      (broadcastTo ⟨2, ![M, N]⟩ v15 hb')
      = layer (Ideal.ofBits .f32 sl) v0 v2 v12 v15 := by
  rw [act_payload hb hlt sl v0 v2, matmul_zero]
  funext j
  obtain ⟨p, q, rfl⟩ : ∃ (p : Fin M) (q : Fin N), j = ix2 p q := ⟨j 0, j 1, eq_ix2 j⟩
  show mm (actGt (Ideal.ofBits .f32 sl) v0 v2) v12 (ix2 p q) + broadcastTo ⟨2, ![M, N]⟩ v15 hb' (ix2 p q) = _
  rw [broadcastTo_1b_ab_apply]
  rfl

end Cert.Lib.DenseLayer

end
-- ==== Proof.KPay.lean ====
/-
  What each of the three kernel bodies stores, at the exact values, as a function of the blocks it loads:
  the first body stores the product of its row block with the resident weights; the second and third store the
  dense layer (bias, leaky rectifier, product with the resident weights, bias) of their row block.  Format changes are
  the identity at the exact values and a shape cast to the same shape is the identity.
-/
import proofs.«145313_j19756849561729_2_alg».proof.Proof.Gen.KernelIdeal.Skeleton
import proofs.«145313_j19756849561729_2_alg».proof.Proof.LibDenseLayer

noncomputable section

namespace Cert.KernelIdeal.Hand

open Cert.KernelIdeal Cert.KernelIdeal.Gen Idealize.ShloMosaic Cert.Lib.PlainDot Cert.Lib.DenseLayer

/-- The rectifier's slope: the value of the float nearest one tenth. -/
abbrev slope : EReal := Ideal.ofBits .f32 0x3DCCCCCD#32

/-- A narrowing of the float format is the identity at the exact values. -/
theorem truncf_eq {s : Shape} {φ ψ : FTy} (a : FVec Ideal s φ) (h : ψ.bits < φ.bits) : (truncf ψ a h : FVec Ideal s ψ) = a := rfl

/-- The first body's store: the row block times the weights. -/
theorem pay0 (v0 : Vec Ideal S1200x1433 .f32) (v2 : Vec Ideal S1433x512 .bf16) :
    k0_pay1 (F := Ideal) v0 v2 = mm (M := 1200) (K := 1433) (N := 512) v0 v2 := by
  unfold k0_pay1
  simp only [shapeCast_self]
  have hn : ∀ X : FVec Ideal S1200x512 .f32,
      (truncf .bf16 X bitsLt_bf16_f32 : FVec Ideal S1200x512 .bf16) = (X : S1200x512.Idx → EReal) := fun _ => rfl
  rw [hn]
  exact matmul_zero (M := 1200) (K := 1433) (N := 512) none (truncf .bf16 v0 bitsLt_bf16_f32) v2

/-- The second body's store: the dense layer of the row block (512 columns in, 128 out). -/
theorem pay1 (v0 : Vec Ideal S1200x512 .f32) (v2 : Vec Ideal S1x512 .f32) (v12 : Vec Ideal S512x128 .bf16) (v15 : Vec Ideal S1x128 .f32) :
    k1_pay1 (F := Ideal) v0 v2 v12 v15 = layer (M := 1200) (D := 512) (N := 128) slope v0 v2 v12 v15 := by
  unfold k1_pay1
  simp only [shapeCast_self]
  have hn : ∀ X : FVec Ideal S1200x128 .f32,
      (truncf .bf16 X bitsLt_bf16_f32 : FVec Ideal S1200x128 .bf16) = (X : S1200x128.Idx → EReal) := fun _ => rfl
  rw [hn]
  exact layer_payload (M := 1200) (D := 512) (N := 128) broadcasts_S1x512_S1200x512 broadcasts_S1x128_S1200x128 bitsLt_bf16_f32
    0x3DCCCCCD#32 v0 v2 v12 v15

/-- The third body's store: the dense layer of the row block (128 columns in, 7 out). -/
theorem pay2 (v0 : Vec Ideal S1200x128 .f32) (v2 : Vec Ideal S1x128 .f32) (v12 : Vec Ideal S128x7 .bf16) (v15 : Vec Ideal S1x7 .f32) :
    k2_pay1 (F := Ideal) v0 v2 v12 v15 = layer (M := 1200) (D := 128) (N := 7) slope v0 v2 v12 v15 := by
  unfold k2_pay1
  simp only [shapeCast_self]
  exact layer_payload (M := 1200) (D := 128) (N := 7) broadcasts_S1x128_S1200x128 broadcasts_S1x7_S1200x7 bitsLt_bf16_f32
    0x3DCCCCCD#32 v0 v2 v12 v15

end Cert.KernelIdeal.Hand

end
-- ==== Proof.LibRowBlock.lean ====
/-
  Row blocks.  The matrix product and the dense layer are row-local, so their value at an index `z` of the whole
  array equals their value at an index `y` of a block of rows whenever the block's row `y 0` of the left operand is
  the whole operand's row `z 0` and the two indices name the same column.  Stated over arbitrary indices (not
  coordinates), so that it can be used at a block's index and at its position in the array.
-/
import proofs.«145313_j19756849561729_2_alg».proof.Proof.LibDenseLayer

noncomputable section

namespace Cert.Lib.RowBlock

open Idealize.ShloMosaic Idealize.ShloMosaic.ValueIdx Cert.Lib.PlainDot Cert.Lib.DenseLayer

/-- The product at index `y` of a row block equals the whole product at `z`: same column, and row `y 0` of the block
    is row `z 0` of the whole left operand. -/
theorem mm_block {M M' K N : Nat} (l : (⟨2, ![M, K]⟩ : Shape).Idx → EReal) (l' : (⟨2, ![M', K]⟩ : Shape).Idx → EReal)
    (r : (⟨2, ![K, N]⟩ : Shape).Idx → EReal) (y : (⟨2, ![M', N]⟩ : Shape).Idx) (z : (⟨2, ![M, N]⟩ : Shape).Idx)
    (h1 : (z 1).val = (y 1).val) (hl : ∀ k : Fin K, l' (ix2 (y 0) k) = l (ix2 (z 0) k)) : mm l' r y = mm l r z := by
  have e : (z 1 : Fin N) = (y 1 : Fin N) := Fin.ext h1
  calc mm l' r y = mm l' r (ix2 (y 0) (y 1)) := congrArg (mm l' r) (eq_ix2 y)
    _ = mm l r (ix2 (z 0) (y 1)) := mm_row l l' r (z 0) (y 0) (y 1) hl
    _ = mm l r (ix2 (z 0) (z 1)) := by rw [e]
    _ = mm l r z := (congrArg (mm l r) (eq_ix2 z)).symm

/-- The same for the dense layer. -/
theorem layer_block {M M' D N : Nat} (s : EReal) (agg : (⟨2, ![M, D]⟩ : Shape).Idx → EReal)
    (agg' : (⟨2, ![M', D]⟩ : Shape).Idx → EReal) (b : (⟨2, ![1, D]⟩ : Shape).Idx → EReal)
    (w : (⟨2, ![D, N]⟩ : Shape).Idx → EReal) (b' : (⟨2, ![1, N]⟩ : Shape).Idx → EReal)
    (y : (⟨2, ![M', N]⟩ : Shape).Idx) (z : (⟨2, ![M, N]⟩ : Shape).Idx)
    (h1 : (z 1).val = (y 1).val) (hl : ∀ k : Fin D, agg' (ix2 (y 0) k) = agg (ix2 (z 0) k)) :
    layer s agg' b w b' y = layer s agg b w b' z := by
  have e : (z 1 : Fin N) = (y 1 : Fin N) := Fin.ext h1
  calc layer s agg' b w b' y = layer s agg' b w b' (ix2 (y 0) (y 1)) := congrArg (layer s agg' b w b') (eq_ix2 y)
    _ = layer s agg b w b' (ix2 (z 0) (y 1)) := layer_row s agg agg' b w b' (z 0) (y 0) (y 1) hl
    _ = layer s agg b w b' (ix2 (z 0) (z 1)) := by rw [e]
    _ = layer s agg b w b' z := (congrArg (layer s agg b w b') (eq_ix2 z)).symm

end Cert.Lib.RowBlock

end
-- ==== Proof.KBlock0.lean ====
/-
  The first kernel region, from row blocks to the whole array.  The region's grid has 25 points; point `t` reads rows
  `1200 t … 1200 t + 1199` of the node features (window 0) and the whole weight matrix (window 1, the same block at every
  point), and writes rows `1200 t … 1200 t + 1199` of the product (window 2).  The product is row-local, so what point `t`
  writes back is block `t` of the product of the WHOLE arrays; the 25 blocks cover the 30000 rows.
-/
import proofs.«145313_j19756849561729_2_alg».proof.Proof.Gen.KernelIdeal.Frame
import proofs.«145313_j19756849561729_2_alg».proof.Proof.KPay
import proofs.«145313_j19756849561729_2_alg».proof.Proof.LibRowBlock
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot Cert.Lib.DenseLayer Cert.Lib.RowBlock

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: windows 0 and 2 move with the point along the rows, window 1 stays. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the result array ends holding: the product of the two arrays the region is entered with. -/
def G0 (c : Dev nD) : S30000x512.Idx → EReal :=
  mm (M := 30000) (K := 1433) (N := 512) (V c main_arg0) (V c main_v0)

/-- Window 0's block at point `t` is rows `1200 t …` of its array. -/
theorem iblk0_0_apply (c : Dev nD) (t : Fin cfg0.N) (x : S1200x1433.Idx) (k : S30000x1433.Idx)
    (h0 : (k 0).val = t.val * 1200 + (x 0).val) (h1 : (k 1).val = (x 1).val) :
    (iblk0 V c 0 t : S1200x1433.Idx → EReal) x = (V c main_arg0 : S30000x1433.Idx → EReal) k := by
  obtain ⟨e00, e01, -⟩ := idx0 t
  unfold iblk0
  rw [View.read_apply]
  refine congrArg (V c main_arg0 : S30000x1433.Idx → EReal) (funext fun a => Fin.ext ?_)
  match a with
  | ⟨0, _⟩ => show win0_0.index t (0 : Fin 2) * 1200 + 1 * (x 0).val = (k 0).val; rw [e00, h0]; omega
  | ⟨1, _⟩ => show win0_0.index t (1 : Fin 2) * 1433 + 1 * (x 1).val = (k 1).val; rw [e01, h1]; omega

/-- Window 1's block at every point is its whole array. -/
theorem iblk0_1_eq (c : Dev nD) (t : Fin cfg0.N) : (iblk0 V c 1 t : S1433x512.Idx → EReal) = V c main_v0 := by
  obtain ⟨-, -, e10, e11, -⟩ := idx0 t
  funext x
  unfold iblk0
  rw [View.read_apply]
  refine congrArg (V c main_v0 : S1433x512.Idx → EReal) (funext fun a => Fin.ext ?_)
  match a with
  | ⟨0, _⟩ => show win0_1.index t (0 : Fin 2) * 1433 + 1 * (x 0).val = (x 0).val; rw [e10]; omega
  | ⟨1, _⟩ => show win0_1.index t (1 : Fin 2) * 512 + 1 * (x 1).val = (x 1).val; rw [e11]; omega

/-- What point `t` writes back is block `t` of `G0`. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S1200x1433) hz0, View.ld_unit_zero (S := S1433x512) hz0]
  rw [pay0]
  obtain ⟨-, -, -, -, e20, e21⟩ := idx0 t
  funext y
  rw [View.read_apply]
  show mm (M := 1200) (K := 1433) (N := 512) (iblk0 V c 0 t) (iblk0 V c 1 t) y
    = G0 V c (((cfg0.win 2).blk t).view.emb y)
  rw [iblk0_1_eq V c t]
  unfold G0
  refine mm_block (V c main_arg0) (iblk0 V c 0 t) (V c main_v0) y (((cfg0.win 2).blk t).view.emb y) ?_ ?_
  · show win0_2.index t (1 : Fin 2) * 512 + 1 * (y 1).val = (y 1).val
    rw [e21]; omega
  · intro k
    refine iblk0_0_apply V c t _ _ ?_ rfl
    show win0_2.index t (0 : Fin 2) * 1200 + 1 * (y 0).val = t.val * 1200 + (y 0).val
    rw [e20]; omega

/-- An index of the result array is in point `t`'s block iff each coordinate is in the block's range. -/
theorem mem_blk0 (t : Fin cfg0.N) (i : S30000x512.Idx) :
    i ∈ ((cfg0.win 2).blk t).view.set ↔ ∀ a : Fin 2, win0_2.index t a * S1200x512.size a ≤ (i a).val
      ∧ (i a).val < win0_2.index t a * S1200x512.size a + S1200x512.size a := by
  show i ∈ ((View.whole main_v4).slice (win0_2.rect t)).set ↔ _
  rw [View.set_slice_whole, Rect.mem_set_unit]
  exact Iff.rfl

/-- Row `r` of the result array lies in the block of point `r / 1200`. -/
theorem cover0 (i : S30000x512.Idx) :
    ∃ t : Fin cfg0.N, (cfg0.win 2).flush t = true ∧ i ∈ ((cfg0.win 2).blk t).view.set := by
  have hi0 : (i 0).val < 30000 := (i 0).isLt
  have hi1 : (i 1).val < 512 := (i 1).isLt
  have hN : cfg0.N = 25 := N_0
  have ht : (i 0).val / 1200 < cfg0.N := by rw [hN]; omega
  refine ⟨⟨(i 0).val / 1200, ht⟩, flush0_2 _, ?_⟩
  rw [mem_blk0]
  obtain ⟨-, -, -, -, e20, e21⟩ := idx0 ⟨(i 0).val / 1200, ht⟩
  intro a
  match a with
  | ⟨0, _⟩ =>
    show win0_2.index ⟨(i 0).val / 1200, ht⟩ (0 : Fin 2) * 1200 ≤ (i 0).val
      ∧ (i 0).val < win0_2.index ⟨(i 0).val / 1200, ht⟩ (0 : Fin 2) * 1200 + 1200
    rw [e20]; show (i 0).val / 1200 * 1200 ≤ (i 0).val ∧ (i 0).val < (i 0).val / 1200 * 1200 + 1200; omega
  | ⟨1, _⟩ =>
    show win0_2.index ⟨(i 0).val / 1200, ht⟩ (1 : Fin 2) * 512 ≤ (i 1).val
      ∧ (i 1).val < win0_2.index ⟨(i 0).val / 1200, ht⟩ (1 : Fin 2) * 512 + 512
    rw [e21]; omega

/-- The result array after the region: the product of the arrays the region was entered with. -/
theorem final0 (c : Dev nD) : (dat0 V c).arrAt 2 cfg0.N = G0 V c :=
  (dat0 V c).arrAt_eq_of_cover 2 (G0 V c) (fun t _ => flushed0 V c t) (cover0)

end Cert.KernelIdeal.Hand

end
-- ==== Proof.KBlock1.lean ====
/-
  The second kernel region, from row blocks to the whole array.  The region's grid has 25 points; point `t` reads rows
  `1200 t … 1200 t + 1199` of the aggregated features (window 0), the whole bias row, weight matrix and output-bias row
  (windows 1–3, the same block at every point), and writes rows `1200 t … 1200 t + 1199` of the result (window 4).
  Since the dense layer is row-local, what point `t` writes back is block `t` of the dense layer of the WHOLE arrays; the 25
  blocks cover the 30000 rows, so the result array ends holding the dense layer of the arrays the region was entered with.
-/
import proofs.«145313_j19756849561729_2_alg».proof.Proof.Gen.KernelIdeal.Frame
import proofs.«145313_j19756849561729_2_alg».proof.Proof.KPay
import proofs.«145313_j19756849561729_2_alg».proof.Proof.LibRowBlock
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot Cert.Lib.DenseLayer Cert.Lib.RowBlock

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: windows 0 and 4 move with the point along the rows, windows 1–3 stay. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the result array ends holding: the dense layer of the four arrays the region is entered with. -/
def G1 (c : Dev nD) : S30000x128.Idx → EReal :=
  layer (M := 30000) (D := 512) (N := 128) slope (V c main_v18) (V c main_v19) (V c main_v1) (V c main_v20)

/-- Window 0's block at point `t` is rows `1200 t …` of its array. -/
theorem iblk1_0_apply (c : Dev nD) (t : Fin cfg1.N) (x : S1200x512.Idx) (k : S30000x512.Idx)
    (h0 : (k 0).val = t.val * 1200 + (x 0).val) (h1 : (k 1).val = (x 1).val) :
    (iblk1 V c 0 t : S1200x512.Idx → EReal) x = (V c main_v18 : S30000x512.Idx → EReal) k := by
  obtain ⟨e00, e01, -⟩ := idx1 t
  unfold iblk1
  rw [View.read_apply]
  refine congrArg (V c main_v18 : S30000x512.Idx → EReal) (funext fun a => Fin.ext ?_)
  match a with
  | ⟨0, _⟩ => show win1_0.index t (0 : Fin 2) * 1200 + 1 * (x 0).val = (k 0).val; rw [e00, h0]; omega
  | ⟨1, _⟩ => show win1_0.index t (1 : Fin 2) * 512 + 1 * (x 1).val = (k 1).val; rw [e01, h1]; omega

/-- Window 1's block at every point is its whole array. -/
theorem iblk1_1_eq (c : Dev nD) (t : Fin cfg1.N) : (iblk1 V c 1 t : S1x512.Idx → EReal) = V c main_v19 := by
  obtain ⟨-, -, e10, e11, -⟩ := idx1 t
  funext x
  unfold iblk1
  rw [View.read_apply]
  refine congrArg (V c main_v19 : S1x512.Idx → EReal) (funext fun a => Fin.ext ?_)
  match a with
  | ⟨0, _⟩ => show win1_1.index t (0 : Fin 2) * 1 + 1 * (x 0).val = (x 0).val; rw [e10]; omega
  | ⟨1, _⟩ => show win1_1.index t (1 : Fin 2) * 512 + 1 * (x 1).val = (x 1).val; rw [e11]; omega

/-- Window 2's block at every point is its whole array. -/
theorem iblk1_2_eq (c : Dev nD) (t : Fin cfg1.N) : (iblk1 V c 2 t : S512x128.Idx → EReal) = V c main_v1 := by
  obtain ⟨-, -, -, -, e20, e21, -⟩ := idx1 t
  funext x
  unfold iblk1
  rw [View.read_apply]
  refine congrArg (V c main_v1 : S512x128.Idx → EReal) (funext fun a => Fin.ext ?_)
  match a with
  | ⟨0, _⟩ => show win1_2.index t (0 : Fin 2) * 512 + 1 * (x 0).val = (x 0).val; rw [e20]; omega
  | ⟨1, _⟩ => show win1_2.index t (1 : Fin 2) * 128 + 1 * (x 1).val = (x 1).val; rw [e21]; omega

/-- Window 3's block at every point is its whole array. -/
theorem iblk1_3_eq (c : Dev nD) (t : Fin cfg1.N) : (iblk1 V c 3 t : S1x128.Idx → EReal) = V c main_v20 := by
  obtain ⟨-, -, -, -, -, -, e30, e31, -⟩ := idx1 t
  funext x
  unfold iblk1
  rw [View.read_apply]
  refine congrArg (V c main_v20 : S1x128.Idx → EReal) (funext fun a => Fin.ext ?_)
  match a with
  | ⟨0, _⟩ => show win1_3.index t (0 : Fin 2) * 1 + 1 * (x 0).val = (x 0).val; rw [e30]; omega
  | ⟨1, _⟩ => show win1_3.index t (1 : Fin 2) * 128 + 1 * (x 1).val = (x 1).val; rw [e31]; omega

/-- What point `t` writes back is block `t` of `G1`. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S1200x512) hz1, View.ld_unit_zero (S := S1x512) hz1,
    View.ld_unit_zero (S := S512x128) hz1, View.ld_unit_zero (S := S1x128) hz1]
  rw [pay1]
  obtain ⟨-, -, -, -, -, -, -, -, e40, e41⟩ := idx1 t
  funext y
  rw [View.read_apply]
  show layer (M := 1200) (D := 512) (N := 128) slope (iblk1 V c 0 t) (iblk1 V c 1 t) (iblk1 V c 2 t) (iblk1 V c 3 t) y
    = G1 V c (((cfg1.win 4).blk t).view.emb y)
  rw [iblk1_1_eq V c t, iblk1_2_eq V c t, iblk1_3_eq V c t]
  unfold G1
  refine layer_block slope (V c main_v18) (iblk1 V c 0 t) (V c main_v19) (V c main_v1) (V c main_v20) y
    (((cfg1.win 4).blk t).view.emb y) ?_ ?_
  · show win1_4.index t (1 : Fin 2) * 128 + 1 * (y 1).val = (y 1).val
    rw [e41]; omega
  · intro k
    refine iblk1_0_apply V c t _ _ ?_ rfl
    show win1_4.index t (0 : Fin 2) * 1200 + 1 * (y 0).val = t.val * 1200 + (y 0).val
    rw [e40]; omega

/-- An index of the result array is in point `t`'s block iff each coordinate is in the block's range. -/
theorem mem_blk1 (t : Fin cfg1.N) (i : S30000x128.Idx) :
    i ∈ ((cfg1.win 4).blk t).view.set ↔ ∀ a : Fin 2, win1_4.index t a * S1200x128.size a ≤ (i a).val
      ∧ (i a).val < win1_4.index t a * S1200x128.size a + S1200x128.size a := by
  show i ∈ ((View.whole main_v21).slice (win1_4.rect t)).set ↔ _
  rw [View.set_slice_whole, Rect.mem_set_unit]
  exact Iff.rfl

/-- Row `r` of the result array lies in the block of point `r / 1200`. -/
theorem cover1 (i : S30000x128.Idx) :
    ∃ t : Fin cfg1.N, (cfg1.win 4).flush t = true ∧ i ∈ ((cfg1.win 4).blk t).view.set := by
  have hi0 : (i 0).val < 30000 := (i 0).isLt
  have hi1 : (i 1).val < 128 := (i 1).isLt
  have hN : cfg1.N = 25 := N_1
  have ht : (i 0).val / 1200 < cfg1.N := by rw [hN]; omega
  refine ⟨⟨(i 0).val / 1200, ht⟩, flush1_4 _, ?_⟩
  rw [mem_blk1]
  obtain ⟨-, -, -, -, -, -, -, -, e40, e41⟩ := idx1 ⟨(i 0).val / 1200, ht⟩
  intro a
  match a with
  | ⟨0, _⟩ =>
    show win1_4.index ⟨(i 0).val / 1200, ht⟩ (0 : Fin 2) * 1200 ≤ (i 0).val
      ∧ (i 0).val < win1_4.index ⟨(i 0).val / 1200, ht⟩ (0 : Fin 2) * 1200 + 1200
    rw [e40]; show (i 0).val / 1200 * 1200 ≤ (i 0).val ∧ (i 0).val < (i 0).val / 1200 * 1200 + 1200; omega
  | ⟨1, _⟩ =>
    show win1_4.index ⟨(i 0).val / 1200, ht⟩ (1 : Fin 2) * 128 ≤ (i 1).val
      ∧ (i 1).val < win1_4.index ⟨(i 0).val / 1200, ht⟩ (1 : Fin 2) * 128 + 128
    rw [e41]; omega

/-- The result array after the region: the dense layer of the arrays the region was entered with. -/
theorem final1 (c : Dev nD) : (dat1 V c).arrAt 4 cfg1.N = G1 V c :=
  (dat1 V c).arrAt_eq_of_cover 4 (G1 V c) (fun t _ => flushed1 V c t) (cover1)

end Cert.KernelIdeal.Hand

end
-- ==== Proof.KBlock2.lean ====
/-
  The third kernel region, from row blocks to the whole array.  The region's grid has 25 points; point `t` reads rows
  `1200 t … 1200 t + 1199` of the second aggregation (window 0), the whole bias row, weight matrix and output-bias row
  (windows 1–3, the same block at every point), and writes rows `1200 t … 1200 t + 1199` of the result (window 4).
  Since the dense layer is row-local, what point `t` writes back is block `t` of the dense layer of the WHOLE arrays; the 25
  blocks cover the 30000 rows, so the result array ends holding the dense layer of the arrays the region was entered with.
-/
import proofs.«145313_j19756849561729_2_alg».proof.Proof.Gen.KernelIdeal.Frame
import proofs.«145313_j19756849561729_2_alg».proof.Proof.KPay
import proofs.«145313_j19756849561729_2_alg».proof.Proof.LibRowBlock
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot Cert.Lib.DenseLayer Cert.Lib.RowBlock

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: windows 0 and 4 move with the point along the rows, windows 1–3 stay. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the result array ends holding: the dense layer of the four arrays the region is entered with. -/
def G2 (c : Dev nD) : S30000x7.Idx → EReal :=
  layer (M := 30000) (D := 128) (N := 7) slope (V c main_v35) (V c main_v36) (V c main_v2) (V c main_v37)

/-- Window 0's block at point `t` is rows `1200 t …` of its array. -/
theorem iblk2_0_apply (c : Dev nD) (t : Fin cfg2.N) (x : S1200x128.Idx) (k : S30000x128.Idx)
    (h0 : (k 0).val = t.val * 1200 + (x 0).val) (h1 : (k 1).val = (x 1).val) :
    (iblk2 V c 0 t : S1200x128.Idx → EReal) x = (V c main_v35 : S30000x128.Idx → EReal) k := by
  obtain ⟨e00, e01, -⟩ := idx2 t
  unfold iblk2
  rw [View.read_apply]
  refine congrArg (V c main_v35 : S30000x128.Idx → EReal) (funext fun a => Fin.ext ?_)
  match a with
  | ⟨0, _⟩ => show win2_0.index t (0 : Fin 2) * 1200 + 1 * (x 0).val = (k 0).val; rw [e00, h0]; omega
  | ⟨1, _⟩ => show win2_0.index t (1 : Fin 2) * 128 + 1 * (x 1).val = (k 1).val; rw [e01, h1]; omega

/-- Window 1's block at every point is its whole array. -/
theorem iblk2_1_eq (c : Dev nD) (t : Fin cfg2.N) : (iblk2 V c 1 t : S1x128.Idx → EReal) = V c main_v36 := by
  obtain ⟨-, -, e10, e11, -⟩ := idx2 t
  funext x
  unfold iblk2
  rw [View.read_apply]
  refine congrArg (V c main_v36 : S1x128.Idx → EReal) (funext fun a => Fin.ext ?_)
  match a with
  | ⟨0, _⟩ => show win2_1.index t (0 : Fin 2) * 1 + 1 * (x 0).val = (x 0).val; rw [e10]; omega
  | ⟨1, _⟩ => show win2_1.index t (1 : Fin 2) * 128 + 1 * (x 1).val = (x 1).val; rw [e11]; omega

/-- Window 2's block at every point is its whole array. -/
theorem iblk2_2_eq (c : Dev nD) (t : Fin cfg2.N) : (iblk2 V c 2 t : S128x7.Idx → EReal) = V c main_v2 := by
  obtain ⟨-, -, -, -, e20, e21, -⟩ := idx2 t
  funext x
  unfold iblk2
  rw [View.read_apply]
  refine congrArg (V c main_v2 : S128x7.Idx → EReal) (funext fun a => Fin.ext ?_)
  match a with
  | ⟨0, _⟩ => show win2_2.index t (0 : Fin 2) * 128 + 1 * (x 0).val = (x 0).val; rw [e20]; omega
  | ⟨1, _⟩ => show win2_2.index t (1 : Fin 2) * 7 + 1 * (x 1).val = (x 1).val; rw [e21]; omega

/-- Window 3's block at every point is its whole array. -/
theorem iblk2_3_eq (c : Dev nD) (t : Fin cfg2.N) : (iblk2 V c 3 t : S1x7.Idx → EReal) = V c main_v37 := by
  obtain ⟨-, -, -, -, -, -, e30, e31, -⟩ := idx2 t
  funext x
  unfold iblk2
  rw [View.read_apply]
  refine congrArg (V c main_v37 : S1x7.Idx → EReal) (funext fun a => Fin.ext ?_)
  match a with
  | ⟨0, _⟩ => show win2_3.index t (0 : Fin 2) * 1 + 1 * (x 0).val = (x 0).val; rw [e30]; omega
  | ⟨1, _⟩ => show win2_3.index t (1 : Fin 2) * 7 + 1 * (x 1).val = (x 1).val; rw [e31]; omega

/-- What point `t` writes back is block `t` of `G2`. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S1200x128) hz2, View.ld_unit_zero (S := S1x128) hz2,
    View.ld_unit_zero (S := S128x7) hz2, View.ld_unit_zero (S := S1x7) hz2]
  rw [pay2]
  obtain ⟨-, -, -, -, -, -, -, -, e40, e41⟩ := idx2 t
  funext y
  rw [View.read_apply]
  show layer (M := 1200) (D := 128) (N := 7) slope (iblk2 V c 0 t) (iblk2 V c 1 t) (iblk2 V c 2 t) (iblk2 V c 3 t) y
    = G2 V c (((cfg2.win 4).blk t).view.emb y)
  rw [iblk2_1_eq V c t, iblk2_2_eq V c t, iblk2_3_eq V c t]
  unfold G2
  refine layer_block slope (V c main_v35) (iblk2 V c 0 t) (V c main_v36) (V c main_v2) (V c main_v37) y
    (((cfg2.win 4).blk t).view.emb y) ?_ ?_
  · show win2_4.index t (1 : Fin 2) * 7 + 1 * (y 1).val = (y 1).val
    rw [e41]; omega
  · intro k
    refine iblk2_0_apply V c t _ _ ?_ rfl
    show win2_4.index t (0 : Fin 2) * 1200 + 1 * (y 0).val = t.val * 1200 + (y 0).val
    rw [e40]; omega

/-- An index of the result array is in point `t`'s block iff each coordinate is in the block's range. -/
theorem mem_blk2 (t : Fin cfg2.N) (i : S30000x7.Idx) :
    i ∈ ((cfg2.win 4).blk t).view.set ↔ ∀ a : Fin 2, win2_4.index t a * S1200x7.size a ≤ (i a).val
      ∧ (i a).val < win2_4.index t a * S1200x7.size a + S1200x7.size a := by
  show i ∈ ((View.whole main_v38).slice (win2_4.rect t)).set ↔ _
  rw [View.set_slice_whole, Rect.mem_set_unit]
  exact Iff.rfl

/-- Row `r` of the result array lies in the block of point `r / 1200`. -/
theorem cover2 (i : S30000x7.Idx) :
    ∃ t : Fin cfg2.N, (cfg2.win 4).flush t = true ∧ i ∈ ((cfg2.win 4).blk t).view.set := by
  have hi0 : (i 0).val < 30000 := (i 0).isLt
  have hi1 : (i 1).val < 7 := (i 1).isLt
  have hN : cfg2.N = 25 := N_2
  have ht : (i 0).val / 1200 < cfg2.N := by rw [hN]; omega
  refine ⟨⟨(i 0).val / 1200, ht⟩, flush2_4 _, ?_⟩
  rw [mem_blk2]
  obtain ⟨-, -, -, -, -, -, -, -, e40, e41⟩ := idx2 ⟨(i 0).val / 1200, ht⟩
  intro a
  match a with
  | ⟨0, _⟩ =>
    show win2_4.index ⟨(i 0).val / 1200, ht⟩ (0 : Fin 2) * 1200 ≤ (i 0).val
      ∧ (i 0).val < win2_4.index ⟨(i 0).val / 1200, ht⟩ (0 : Fin 2) * 1200 + 1200
    rw [e40]; show (i 0).val / 1200 * 1200 ≤ (i 0).val ∧ (i 0).val < (i 0).val / 1200 * 1200 + 1200; omega
  | ⟨1, _⟩ =>
    show win2_4.index ⟨(i 0).val / 1200, ht⟩ (1 : Fin 2) * 7 ≤ (i 1).val
      ∧ (i 1).val < win2_4.index ⟨(i 0).val / 1200, ht⟩ (1 : Fin 2) * 7 + 7
    rw [e41]; omega

/-- The result array after the region: the dense layer of the arrays the region was entered with. -/
theorem final2 (c : Dev nD) : (dat2 V c).arrAt 4 cfg2.N = G2 V c :=
  (dat2 V c).arrAt_eq_of_cover 4 (G2 V c) (fun t _ => flushed2 V c t) (cover2)

end Cert.KernelIdeal.Hand

end
-- ==== Proof.KHost.lean ====
/-
  The host operations between the kernel regions, read as functions.  Before the first region the three weight matrices
  are narrowed (the identity at the exact values) and a zero row is made; between regions the program gathers, for every
  edge, the source node's row of the previous region's result, widens it, scales it by the edge's weight and adds it into
  the destination node's row of a zero array (the neighbour sum), and reshapes the bias vectors into one-row matrices.
  Each read is stated from an ARBITRARY valuation of the buffers, so that nothing of the regions is ever unfolded.
-/
import proofs.«145313_j19756849561729_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edge-weighted neighbour sum into 512 columns, as the kernel's program computes it: a negative source index is
    wrapped once by the row count, row `src e` of the narrow-format array `h` is gathered for each edge and widened, scaled
    by the edge's weight broadcast along the row, and added into row `dst e` of a zero array. -/
def kspmm512 (src dst : (⟨S480000, .i32⟩ : BufTy).Contents (Elt F)) (ew : (⟨S480000, .f32⟩ : BufTy).Contents (Elt F))
    (h : (⟨S30000x512, .bf16⟩ : BufTy).Contents (Elt F)) : (⟨S30000x512, .f32⟩ : BufTy).Contents (Elt F) :=
  Host.scatterAdd (F := F) scatter_S30000x512_S480000x1_S480000x512_1_0_0_1
    (broadcastInDim (s := S_) S30000x512 ![] bcast_S_S30000x512 (constant (F := F) S_ .f32 0x00000000#32))
    (broadcastInDim S480000x1 ![0] bcast_S480000_S480000x1_0 dst)
    (mulf
      (broadcastInDim S480000x512 ![0, 1] bcast_S480000x1_S480000x512_0_1
        (broadcastInDim S480000x1 ![0] bcast_S480000_S480000x1_0 ew))
      (extf .f32 (Host.gather gather_S30000x512_S480000x1_S480000x512_1_0_n_n_0_1_1512 h
        (broadcastInDim S480000x1 ![0] bcast_S480000_S480000x1_0
          (select (cmpi .slt src (broadcastInDim (s := S_) S480000 ![] bcast_S_S480000 (constantI S_ 32 0#32)))
            (addi src (broadcastInDim (s := S_) S480000 ![] bcast_S_S480000 (constantI S_ 32 30000#32)))
            src))) bitsLt_bf16_f32))

/-- The same into 128 columns. -/
def kspmm128 (src dst : (⟨S480000, .i32⟩ : BufTy).Contents (Elt F)) (ew : (⟨S480000, .f32⟩ : BufTy).Contents (Elt F))
    (h : (⟨S30000x128, .bf16⟩ : BufTy).Contents (Elt F)) : (⟨S30000x128, .f32⟩ : BufTy).Contents (Elt F) :=
  Host.scatterAdd (F := F) scatter_S30000x128_S480000x1_S480000x128_1_0_0_1
    (broadcastInDim (s := S_) S30000x128 ![] bcast_S_S30000x128 (constant (F := F) S_ .f32 0x00000000#32))
    (broadcastInDim S480000x1 ![0] bcast_S480000_S480000x1_0 dst)
    (mulf
      (broadcastInDim S480000x128 ![0, 1] bcast_S480000x1_S480000x128_0_1
        (broadcastInDim S480000x1 ![0] bcast_S480000_S480000x1_0 ew))
      (extf .f32 (Host.gather gather_S30000x128_S480000x1_S480000x128_1_0_n_n_0_1_1128 h
        (broadcastInDim S480000x1 ![0] bcast_S480000_S480000x1_0
          (select (cmpi .slt src (broadcastInDim (s := S_) S480000 ![] bcast_S_S480000 (constantI S_ 32 0#32)))
            (addi src (broadcastInDim (s := S_) S480000 ![] bcast_S_S480000 (constantI S_ 32 30000#32)))
            src))) bitsLt_bf16_f32))

variable (Wv : Valuation τ sig (Elt F))

/-! ## The first stretch: the weights narrowed, the zero row -/

theorem h0_v0 : after hostOps0 Wv (main_v0 : DevRef τ sig) = truncf .bf16 (Wv (main_arg4 : DevRef τ sig)) bitsLt_bf16_f32 := by after_results
theorem h0_v1 : after hostOps0 Wv (main_v1 : DevRef τ sig) = truncf .bf16 (Wv (main_arg6 : DevRef τ sig)) bitsLt_bf16_f32 := by after_results
theorem h0_v2 : after hostOps0 Wv (main_v2 : DevRef τ sig) = truncf .bf16 (Wv (main_arg8 : DevRef τ sig)) bitsLt_bf16_f32 := by after_results
theorem h0_v3 : after hostOps0 Wv (main_v3 : DevRef τ sig)
    = broadcastInDim (s := S_) S128 ![] bcast_S_S128 (constant (F := F) S_ .f32 0x00000000#32) := by after_results
theorem h0_arg0 : after hostOps0 Wv (main_arg0 : DevRef τ sig) = Wv (main_arg0 : DevRef τ sig) := by after_results
theorem h0_arg1 : after hostOps0 Wv (main_arg1 : DevRef τ sig) = Wv (main_arg1 : DevRef τ sig) := by after_results
theorem h0_arg2 : after hostOps0 Wv (main_arg2 : DevRef τ sig) = Wv (main_arg2 : DevRef τ sig) := by after_results
theorem h0_arg3 : after hostOps0 Wv (main_arg3 : DevRef τ sig) = Wv (main_arg3 : DevRef τ sig) := by after_results
theorem h0_arg5 : after hostOps0 Wv (main_arg5 : DevRef τ sig) = Wv (main_arg5 : DevRef τ sig) := by after_results
theorem h0_arg7 : after hostOps0 Wv (main_arg7 : DevRef τ sig) = Wv (main_arg7 : DevRef τ sig) := by after_results
theorem h0_arg9 : after hostOps0 Wv (main_arg9 : DevRef τ sig) = Wv (main_arg9 : DevRef τ sig) := by after_results

/-! ## The second stretch: the first neighbour sum, the reshaped bias rows -/

attribute [local irreducible] Host.gather Host.scatterAdd in
theorem h1_v18 : after hostOps1 Wv (main_v18 : DevRef τ sig)
    = kspmm512 (Wv (main_arg1 : DevRef τ sig)) (Wv (main_arg2 : DevRef τ sig)) (Wv (main_arg3 : DevRef τ sig))
        (Wv (main_v4 : DevRef τ sig)) := by
  after_results_simp
  rfl
theorem h1_v19 : after hostOps1 Wv (main_v19 : DevRef τ sig)
    = shapeCast S1x512 (Wv (main_arg5 : DevRef τ sig)) shapeCasts_S512_S1x512 := by
  after_results
  rfl
theorem h1_v20 : after hostOps1 Wv (main_v20 : DevRef τ sig)
    = shapeCast S1x128 (Wv (main_v3 : DevRef τ sig)) shapeCasts_S128_S1x128 := by
  after_results
  rfl
theorem h1_v1 : after hostOps1 Wv (main_v1 : DevRef τ sig) = Wv (main_v1 : DevRef τ sig) := by after_results
theorem h1_v2 : after hostOps1 Wv (main_v2 : DevRef τ sig) = Wv (main_v2 : DevRef τ sig) := by after_results
theorem h1_arg1 : after hostOps1 Wv (main_arg1 : DevRef τ sig) = Wv (main_arg1 : DevRef τ sig) := by after_results
theorem h1_arg2 : after hostOps1 Wv (main_arg2 : DevRef τ sig) = Wv (main_arg2 : DevRef τ sig) := by after_results
theorem h1_arg3 : after hostOps1 Wv (main_arg3 : DevRef τ sig) = Wv (main_arg3 : DevRef τ sig) := by after_results
theorem h1_arg7 : after hostOps1 Wv (main_arg7 : DevRef τ sig) = Wv (main_arg7 : DevRef τ sig) := by after_results
theorem h1_arg9 : after hostOps1 Wv (main_arg9 : DevRef τ sig) = Wv (main_arg9 : DevRef τ sig) := by after_results

/-! ## The third stretch: the second neighbour sum, the reshaped bias rows -/

attribute [local irreducible] Host.gather Host.scatterAdd in
theorem h2_v35 : after hostOps2 Wv (main_v35 : DevRef τ sig)
    = kspmm128 (Wv (main_arg1 : DevRef τ sig)) (Wv (main_arg2 : DevRef τ sig)) (Wv (main_arg3 : DevRef τ sig))
        (Wv (main_v21 : DevRef τ sig)) := by
  after_results_simp
  rfl
theorem h2_v36 : after hostOps2 Wv (main_v36 : DevRef τ sig)
    = shapeCast S1x128 (Wv (main_arg7 : DevRef τ sig)) shapeCasts_S128_S1x128 := by
  after_results
  rfl
theorem h2_v37 : after hostOps2 Wv (main_v37 : DevRef τ sig)
    = shapeCast S1x7 (Wv (main_arg9 : DevRef τ sig)) shapeCasts_S7_S1x7 := by
  after_results
  rfl
theorem h2_v2 : after hostOps2 Wv (main_v2 : DevRef τ sig) = Wv (main_v2 : DevRef τ sig) := by after_results

end Cert.KernelIdeal.Hand

end
-- ==== Proof.KValue.lean ====
/-
  The kernel program's result as ONE term of its ten argument arrays.  The contents of the buffers at each segment
  boundary are followed from the launch memory: a stretch of host operations is read as its functions (narrowed weights,
  neighbour sums, reshaped bias rows), a kernel region leaves its result array at the whole-array function of the arrays
  it was entered with (product, dense layer) and every other buffer as it was.  At the last boundary the result buffer
  holds: dense layer ∘ neighbour sum ∘ dense layer ∘ neighbour sum ∘ product, of the arguments.
-/
import proofs.«145313_j19756849561729_2_alg».proof.Proof.KBlock0
import proofs.«145313_j19756849561729_2_alg».proof.Proof.KBlock1
import proofs.«145313_j19756849561729_2_alg».proof.Proof.KBlock2
import proofs.«145313_j19756849561729_2_alg».proof.Proof.KHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Lib.PlainDot Cert.Lib.DenseLayer

variable (m : (ℓ : Loc nD τ sig) → Buf (Elt Ideal) ℓ) (ρ : Dev nD → PrngReg)

/-! ## After the first stretch and the first region -/

theorem V1_arg0 (c : Dev nD) : V1 m ρ c main_arg0 = (m ((c.tc : Thread nD τ).loc main_arg0)) := h0_arg0 (W0 m ρ c)
theorem V1_v0 (c : Dev nD) : V1 m ρ c main_v0 = ((m ((c.tc : Thread nD τ).loc main_arg4)) : S1433x512.Idx → EReal) := by exact h0_v0 (W0 m ρ c)

/-- The first region's result array: the node features times the first weight matrix. -/
theorem W2_v4 (c : Dev nD) : W2 m ρ c (Proc.devRef .tc main_v4) = (mm (M := 30000) (K := 1433) (N := 512) (m ((c.tc : Thread nD τ).loc main_arg0)) (((m ((c.tc : Thread nD τ).loc main_arg4)) : S1433x512.Idx → EReal))) := by
  refine (W2_arr m ρ c 2).trans ((final0 (V1 m ρ) c).trans ?_)
  unfold G0
  rw [V1_arg0, V1_v0]

/-- Buffers the first region does not touch keep what the first stretch left. -/
theorem W2_arg1 (c : Dev nD) : W2 m ρ c (Proc.devRef .tc main_arg1) = (m ((c.tc : Thread nD τ).loc main_arg1)) := (W2_of_ne m ρ c main_arg1 (by decide)).trans (h0_arg1 (W0 m ρ c))
theorem W2_arg2 (c : Dev nD) : W2 m ρ c (Proc.devRef .tc main_arg2) = (m ((c.tc : Thread nD τ).loc main_arg2)) := (W2_of_ne m ρ c main_arg2 (by decide)).trans (h0_arg2 (W0 m ρ c))
theorem W2_arg3 (c : Dev nD) : W2 m ρ c (Proc.devRef .tc main_arg3) = (m ((c.tc : Thread nD τ).loc main_arg3)) := (W2_of_ne m ρ c main_arg3 (by decide)).trans (h0_arg3 (W0 m ρ c))
theorem W2_arg5 (c : Dev nD) : W2 m ρ c (Proc.devRef .tc main_arg5) = (m ((c.tc : Thread nD τ).loc main_arg5)) := (W2_of_ne m ρ c main_arg5 (by decide)).trans (h0_arg5 (W0 m ρ c))
theorem W2_arg7 (c : Dev nD) : W2 m ρ c (Proc.devRef .tc main_arg7) = (m ((c.tc : Thread nD τ).loc main_arg7)) := (W2_of_ne m ρ c main_arg7 (by decide)).trans (h0_arg7 (W0 m ρ c))
theorem W2_arg9 (c : Dev nD) : W2 m ρ c (Proc.devRef .tc main_arg9) = (m ((c.tc : Thread nD τ).loc main_arg9)) := (W2_of_ne m ρ c main_arg9 (by decide)).trans (h0_arg9 (W0 m ρ c))
theorem W2_v1 (c : Dev nD) : W2 m ρ c (Proc.devRef .tc main_v1) = ((m ((c.tc : Thread nD τ).loc main_arg6)) : S512x128.Idx → EReal) := by exact (W2_of_ne m ρ c main_v1 (by decide)).trans (h0_v1 (W0 m ρ c))
theorem W2_v2 (c : Dev nD) : W2 m ρ c (Proc.devRef .tc main_v2) = ((m ((c.tc : Thread nD τ).loc main_arg8)) : S128x7.Idx → EReal) := by exact (W2_of_ne m ρ c main_v2 (by decide)).trans (h0_v2 (W0 m ρ c))
theorem W2_v3 (c : Dev nD) : W2 m ρ c (Proc.devRef .tc main_v3) = broadcastInDim (s := S_) S128 ![] bcast_S_S128 (constant (F := Ideal) S_ .f32 0x00000000#32) :=
  (W2_of_ne m ρ c main_v3 (by decide)).trans (h0_v3 (W0 m ρ c))

/-! ## After the second stretch and the second region -/

theorem V3_v18 (c : Dev nD) : V3 m ρ c main_v18 = (kspmm512 (m ((c.tc : Thread nD τ).loc main_arg1)) (m ((c.tc : Thread nD τ).loc main_arg2)) (m ((c.tc : Thread nD τ).loc main_arg3)) (mm (M := 30000) (K := 1433) (N := 512) (m ((c.tc : Thread nD τ).loc main_arg0)) (((m ((c.tc : Thread nD τ).loc main_arg4)) : S1433x512.Idx → EReal)))) := by
  refine (h1_v18 (W2 m ρ c)).trans ?_
  rw [W2_arg1, W2_arg2, W2_arg3, W2_v4]
theorem V3_v19 (c : Dev nD) : V3 m ρ c main_v19 = shapeCast S1x512 (m ((c.tc : Thread nD τ).loc main_arg5)) shapeCasts_S512_S1x512 := by
  refine (h1_v19 (W2 m ρ c)).trans ?_
  rw [W2_arg5]
theorem V3_v20 (c : Dev nD) : V3 m ρ c main_v20 = (shapeCast S1x128 (broadcastInDim (s := S_) S128 ![] bcast_S_S128 (constant (F := Ideal) S_ .f32 0x00000000#32)) shapeCasts_S128_S1x128) := by
  refine (h1_v20 (W2 m ρ c)).trans ?_
  rw [W2_v3]
theorem V3_v1 (c : Dev nD) : V3 m ρ c main_v1 = ((m ((c.tc : Thread nD τ).loc main_arg6)) : S512x128.Idx → EReal) := (h1_v1 (W2 m ρ c)).trans (W2_v1 m ρ c)

/-- The second region's result array: the dense layer of the first neighbour sum. -/
theorem W4_v21 (c : Dev nD) : W4 m ρ c (Proc.devRef .tc main_v21) = (layer (M := 30000) (D := 512) (N := 128) slope (kspmm512 (m ((c.tc : Thread nD τ).loc main_arg1)) (m ((c.tc : Thread nD τ).loc main_arg2)) (m ((c.tc : Thread nD τ).loc main_arg3)) (mm (M := 30000) (K := 1433) (N := 512) (m ((c.tc : Thread nD τ).loc main_arg0)) (((m ((c.tc : Thread nD τ).loc main_arg4)) : S1433x512.Idx → EReal)))) (shapeCast S1x512 (m ((c.tc : Thread nD τ).loc main_arg5)) shapeCasts_S512_S1x512) (((m ((c.tc : Thread nD τ).loc main_arg6)) : S512x128.Idx → EReal)) (shapeCast S1x128 (broadcastInDim (s := S_) S128 ![] bcast_S_S128 (constant (F := Ideal) S_ .f32 0x00000000#32)) shapeCasts_S128_S1x128)) := by
  refine (W4_arr m ρ c 4).trans ((final1 (V3 m ρ) c).trans ?_)
  unfold G1
  rw [V3_v18, V3_v19, V3_v20, V3_v1]

theorem W4_arg1 (c : Dev nD) : W4 m ρ c (Proc.devRef .tc main_arg1) = (m ((c.tc : Thread nD τ).loc main_arg1)) := (W4_of_ne m ρ c main_arg1 (by decide)).trans ((h1_arg1 (W2 m ρ c)).trans (W2_arg1 m ρ c))
theorem W4_arg2 (c : Dev nD) : W4 m ρ c (Proc.devRef .tc main_arg2) = (m ((c.tc : Thread nD τ).loc main_arg2)) := (W4_of_ne m ρ c main_arg2 (by decide)).trans ((h1_arg2 (W2 m ρ c)).trans (W2_arg2 m ρ c))
theorem W4_arg3 (c : Dev nD) : W4 m ρ c (Proc.devRef .tc main_arg3) = (m ((c.tc : Thread nD τ).loc main_arg3)) := (W4_of_ne m ρ c main_arg3 (by decide)).trans ((h1_arg3 (W2 m ρ c)).trans (W2_arg3 m ρ c))
theorem W4_arg7 (c : Dev nD) : W4 m ρ c (Proc.devRef .tc main_arg7) = (m ((c.tc : Thread nD τ).loc main_arg7)) := (W4_of_ne m ρ c main_arg7 (by decide)).trans ((h1_arg7 (W2 m ρ c)).trans (W2_arg7 m ρ c))
theorem W4_arg9 (c : Dev nD) : W4 m ρ c (Proc.devRef .tc main_arg9) = (m ((c.tc : Thread nD τ).loc main_arg9)) := (W4_of_ne m ρ c main_arg9 (by decide)).trans ((h1_arg9 (W2 m ρ c)).trans (W2_arg9 m ρ c))
theorem W4_v2 (c : Dev nD) : W4 m ρ c (Proc.devRef .tc main_v2) = ((m ((c.tc : Thread nD τ).loc main_arg8)) : S128x7.Idx → EReal) := (W4_of_ne m ρ c main_v2 (by decide)).trans ((h1_v2 (W2 m ρ c)).trans (W2_v2 m ρ c))

/-! ## After the third stretch and the third region -/

theorem V5_v35 (c : Dev nD) : V5 m ρ c main_v35 = (kspmm128 (m ((c.tc : Thread nD τ).loc main_arg1)) (m ((c.tc : Thread nD τ).loc main_arg2)) (m ((c.tc : Thread nD τ).loc main_arg3)) (layer (M := 30000) (D := 512) (N := 128) slope (kspmm512 (m ((c.tc : Thread nD τ).loc main_arg1)) (m ((c.tc : Thread nD τ).loc main_arg2)) (m ((c.tc : Thread nD τ).loc main_arg3)) (mm (M := 30000) (K := 1433) (N := 512) (m ((c.tc : Thread nD τ).loc main_arg0)) (((m ((c.tc : Thread nD τ).loc main_arg4)) : S1433x512.Idx → EReal)))) (shapeCast S1x512 (m ((c.tc : Thread nD τ).loc main_arg5)) shapeCasts_S512_S1x512) (((m ((c.tc : Thread nD τ).loc main_arg6)) : S512x128.Idx → EReal)) (shapeCast S1x128 (broadcastInDim (s := S_) S128 ![] bcast_S_S128 (constant (F := Ideal) S_ .f32 0x00000000#32)) shapeCasts_S128_S1x128))) := by
  refine (h2_v35 (W4 m ρ c)).trans ?_
  rw [W4_arg1, W4_arg2, W4_arg3, W4_v21]
theorem V5_v36 (c : Dev nD) : V5 m ρ c main_v36 = shapeCast S1x128 (m ((c.tc : Thread nD τ).loc main_arg7)) shapeCasts_S128_S1x128 := by
  refine (h2_v36 (W4 m ρ c)).trans ?_
  rw [W4_arg7]
theorem V5_v37 (c : Dev nD) : V5 m ρ c main_v37 = shapeCast S1x7 (m ((c.tc : Thread nD τ).loc main_arg9)) shapeCasts_S7_S1x7 := by
  refine (h2_v37 (W4 m ρ c)).trans ?_
  rw [W4_arg9]
theorem V5_v2 (c : Dev nD) : V5 m ρ c main_v2 = ((m ((c.tc : Thread nD τ).loc main_arg8)) : S128x7.Idx → EReal) := (h2_v2 (W4 m ρ c)).trans (W4_v2 m ρ c)

/-- The kernel program's result as one term of the ten argument arrays. -/
def kout (c : Dev nD) : S30000x7.Idx → EReal := (layer (M := 30000) (D := 128) (N := 7) slope (kspmm128 (m ((c.tc : Thread nD τ).loc main_arg1)) (m ((c.tc : Thread nD τ).loc main_arg2)) (m ((c.tc : Thread nD τ).loc main_arg3)) (layer (M := 30000) (D := 512) (N := 128) slope (kspmm512 (m ((c.tc : Thread nD τ).loc main_arg1)) (m ((c.tc : Thread nD τ).loc main_arg2)) (m ((c.tc : Thread nD τ).loc main_arg3)) (mm (M := 30000) (K := 1433) (N := 512) (m ((c.tc : Thread nD τ).loc main_arg0)) (((m ((c.tc : Thread nD τ).loc main_arg4)) : S1433x512.Idx → EReal)))) (shapeCast S1x512 (m ((c.tc : Thread nD τ).loc main_arg5)) shapeCasts_S512_S1x512) (((m ((c.tc : Thread nD τ).loc main_arg6)) : S512x128.Idx → EReal)) (shapeCast S1x128 (broadcastInDim (s := S_) S128 ![] bcast_S_S128 (constant (F := Ideal) S_ .f32 0x00000000#32)) shapeCasts_S128_S1x128))) (shapeCast S1x128 (m ((c.tc : Thread nD τ).loc main_arg7)) shapeCasts_S128_S1x128) (((m ((c.tc : Thread nD τ).loc main_arg8)) : S128x7.Idx → EReal)) (shapeCast S1x7 (m ((c.tc : Thread nD τ).loc main_arg9)) shapeCasts_S7_S1x7))

/-- The last boundary's contents at the result buffer. -/
theorem W6_v38 (c : Dev nD) : W6 m ρ c (Proc.devRef .tc main_v38) = kout m c := by
  refine (W6_arr m ρ c 4).trans ((final2 (V5 m ρ) c).trans ?_)
  unfold G2 kout
  rw [V5_v35, V5_v36, V5_v37, V5_v2]

end Cert.KernelIdeal.Hand

end
-- ==== Proof.RefRun.lean ====
import proofs.«145313_j19756849561729_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference as one term

The reference is a two-layer graph network followed by a linear read-out. With `A` the sparse matrix holding weight
`ew e` at row `dst e`, column `src e` (one entry per edge `e`, entries of equal position added), it computes
`(lrelu (A (lrelu (A (x W1) + b1) W2) + b2)) Wl + bl`, `lrelu v = if v ≥ 0 then v else v / 10` elementwise
(the slope is the float nearest one tenth). Each piece below is the composition of the printed operations that
compute it, in their order, over the same constants and shape records. -/

/-- The edge-weighted neighbour sum into 512 columns, printed lines %1 … %13 as a function of the array `h` gathered
    from (the value of %0), the edge sources (arg1), destinations (arg2) and weights (arg3): a negative source index
    is wrapped once by the row count (the `select` of %6), row `src e` of `h` is gathered for each edge, scaled by the
    edge's weight broadcast along the row, and added into row `dst e` of a zero array. -/
def spmm512 (src dst : (⟨S480000, .i32⟩ : BufTy).Contents (Elt F)) (ew : (⟨S480000, .f32⟩ : BufTy).Contents (Elt F))
    (h : (⟨S30000x512, .f32⟩ : BufTy).Contents (Elt F)) : (⟨S30000x512, .f32⟩ : BufTy).Contents (Elt F) :=
  Host.scatterAdd (F := F) scatter_S30000x512_S480000x1_S480000x512_1_0_0_1
    (broadcastInDim (s := S_) S30000x512 ![] bcast_S_S30000x512 (constant (F := F) S_ .f32 0x00000000#32))
    (broadcastInDim S480000x1 ![0] bcast_S480000_S480000x1_0 dst)
    (mulf
      (broadcastInDim S480000x512 ![0, 1] bcast_S480000x1_S480000x512_0_1
        (broadcastInDim S480000x1 ![0] bcast_S480000_S480000x1_0 ew))
      (Host.gather gather_S30000x512_S480000x1_S480000x512_1_0_n_n_0_1_1512 h
        (broadcastInDim S480000x1 ![0] bcast_S480000_S480000x1_0
          (select (cmpi .slt src (broadcastInDim (s := S_) S480000 ![] bcast_S_S480000 (constantI S_ 32 0#32)))
            (addi src (broadcastInDim (s := S_) S480000 ![] bcast_S_S480000 (constantI S_ 32 30000#32)))
            src))))

/-- The same into 128 columns: printed lines %19 … %31. -/
def spmm128 (src dst : (⟨S480000, .i32⟩ : BufTy).Contents (Elt F)) (ew : (⟨S480000, .f32⟩ : BufTy).Contents (Elt F))
    (h : (⟨S30000x128, .f32⟩ : BufTy).Contents (Elt F)) : (⟨S30000x128, .f32⟩ : BufTy).Contents (Elt F) :=
  Host.scatterAdd (F := F) scatter_S30000x128_S480000x1_S480000x128_1_0_0_1
    (broadcastInDim (s := S_) S30000x128 ![] bcast_S_S30000x128 (constant (F := F) S_ .f32 0x00000000#32))
    (broadcastInDim S480000x1 ![0] bcast_S480000_S480000x1_0 dst)
    (mulf
      (broadcastInDim S480000x128 ![0, 1] bcast_S480000x1_S480000x128_0_1
        (broadcastInDim S480000x1 ![0] bcast_S480000_S480000x1_0 ew))
      (Host.gather gather_S30000x128_S480000x1_S480000x128_1_0_n_n_0_1_1128 h
        (broadcastInDim S480000x1 ![0] bcast_S480000_S480000x1_0
          (select (cmpi .slt src (broadcastInDim (s := S_) S480000 ![] bcast_S_S480000 (constantI S_ 32 0#32)))
            (addi src (broadcastInDim (s := S_) S480000 ![] bcast_S_S480000 (constantI S_ 32 30000#32)))
            src))))

/-- @leaky_relu at the slope word 0x3DCCCCCD, the callee's seven operations: where `v ≥ 0` (against a broadcast zero)
    it is `v`, elsewhere the product of the broadcast slope (converted to its own type, the identity) and `v`. -/
def lrelu512 (v : (⟨S30000x512, .f32⟩ : BufTy).Contents (Elt F)) : (⟨S30000x512, .f32⟩ : BufTy).Contents (Elt F) :=
  select (cmpf .oge v (broadcastInDim (s := S_) S30000x512 ![] bcast_S_S30000x512 (constant (F := F) S_ .f32 0x00000000#32))) v
    (mulf (broadcastInDim (s := S_) S30000x512 ![] bcast_S_S30000x512 (id (constant (F := F) S_ .f32 0x3DCCCCCD#32))) v)

/-- @leaky_relu_0: the same over 128 columns. -/
def lrelu128 (v : (⟨S30000x128, .f32⟩ : BufTy).Contents (Elt F)) : (⟨S30000x128, .f32⟩ : BufTy).Contents (Elt F) :=
  select (cmpf .oge v (broadcastInDim (s := S_) S30000x128 ![] bcast_S_S30000x128 (constant (F := F) S_ .f32 0x00000000#32))) v
    (mulf (broadcastInDim (s := S_) S30000x128 ![] bcast_S_S30000x128 (id (constant (F := F) S_ .f32 0x3DCCCCCD#32))) v)

/-- The reference's result as one term of its ten argument arrays, in @main's argument order arg0 … arg9: the two
    layers (product with the layer's weights, neighbour sum, bias broadcast over the rows, leaky ReLU), then the
    linear read-out with its bias. -/
def out (x : (⟨S30000x1433, .f32⟩ : BufTy).Contents (Elt F)) (src dst : (⟨S480000, .i32⟩ : BufTy).Contents (Elt F)) (ew : (⟨S480000, .f32⟩ : BufTy).Contents (Elt F))
    (W1 : (⟨S1433x512, .f32⟩ : BufTy).Contents (Elt F)) (b1 : (⟨S512, .f32⟩ : BufTy).Contents (Elt F)) (W2 : (⟨S512x128, .f32⟩ : BufTy).Contents (Elt F)) (b2 : (⟨S128, .f32⟩ : BufTy).Contents (Elt F))
    (Wl : (⟨S128x7, .f32⟩ : BufTy).Contents (Elt F)) (bl : (⟨S7, .f32⟩ : BufTy).Contents (Elt F)) : (⟨S30000x7, .f32⟩ : BufTy).Contents (Elt F) :=
  addf
    (Host.dotGeneral (F := F) dot_S30000x128_S128x7_S30000x7_1_0_0_1_n_n none
      (lrelu128
        (addf
          (spmm128 src dst ew
            (Host.dotGeneral (F := F) dot_S30000x512_S512x128_S30000x128_1_0_0_1_n_n none
              (lrelu512
                (addf
                  (spmm512 src dst ew
                    (Host.dotGeneral (F := F) dot_S30000x1433_S1433x512_S30000x512_1_0_0_1_n_n none x W1))
                  (broadcastInDim S30000x512 ![0, 1] bcast_S1x512_S30000x512_0_1
                    (broadcastInDim S1x512 ![1] bcast_S512_S1x512_1 b1))))
              W2))
          (broadcastInDim S30000x128 ![0, 1] bcast_S1x128_S30000x128_0_1
            (broadcastInDim S1x128 ![1] bcast_S128_S1x128_1 b2))))
      Wl)
    (broadcastInDim S30000x7 ![0, 1] bcast_S1x7_S30000x7_0_1 (broadcastInDim S1x7 ![1] bcast_S7_S1x7_1 bl))

/-- The unfolding equations of the five definitions above, stated once here for every module that rewrites with them. -/
theorem equations_realized : True := by
  have := @spmm512.eq_1; have := @spmm128.eq_1; have := @lrelu512.eq_1; have := @lrelu128.eq_1; have := @out.eq_1
  have := @spmm512.eq_def; have := @spmm128.eq_def; have := @lrelu512.eq_def; have := @lrelu128.eq_def; have := @out.eq_def
  trivial

/-! ## The program as a straight line -/

/-- @main's operations in order, the two calls unfolded: the first layer's twenty-one (the product with the weights,
    the thirteen of the neighbour sum, the bias's two broadcasts, the sum, the slope), @leaky_relu's seven over
    `main_call0`'s buffers (the zero, its broadcast, the comparison, the slope converted, its broadcast, the product,
    `_where`'s select into the call's result), the second layer's twenty-one, @leaky_relu_0's seven over
    `main_call1`'s, and the read-out's four. -/
abbrev ops : List (HloOp τ sig (Elt F)) :=
  [ binary main_arg0 main_arg4 main_v0 ((fun l r => Host.dotGeneral dot_S30000x1433_S1433x512_S30000x512_1_0_0_1_n_n none l r) : (⟨S30000x1433, .f32⟩ : BufTy).Contents (Elt F) → (⟨S1433x512, .f32⟩ : BufTy).Contents (Elt F) → (⟨S30000x512, .f32⟩ : BufTy).Contents (Elt F)),
    unary main_arg3 main_v1 (broadcastInDim S480000x1 ![0] bcast_S480000_S480000x1_0 : (⟨S480000, .f32⟩ : BufTy).Contents (Elt F) → (⟨S480000x1, .f32⟩ : BufTy).Contents (Elt F)),
    nullary main_c (constantI S_ 32 0#32),
    unary main_c main_v2 (broadcastInDim S480000 ![] bcast_S_S480000 : (⟨S_, .i32⟩ : BufTy).Contents (Elt F) → (⟨S480000, .i32⟩ : BufTy).Contents (Elt F)),
    binary main_arg1 main_v2 main_v3 (cmpi .slt : (⟨S480000, .i32⟩ : BufTy).Contents (Elt F) → (⟨S480000, .i32⟩ : BufTy).Contents (Elt F) → (⟨S480000, .i1⟩ : BufTy).Contents (Elt F)),
    nullary main_c_0 (constantI S_ 32 30000#32),
    unary main_c_0 main_v4 (broadcastInDim S480000 ![] bcast_S_S480000 : (⟨S_, .i32⟩ : BufTy).Contents (Elt F) → (⟨S480000, .i32⟩ : BufTy).Contents (Elt F)),
    binary main_arg1 main_v4 main_v5 (addi : (⟨S480000, .i32⟩ : BufTy).Contents (Elt F) → (⟨S480000, .i32⟩ : BufTy).Contents (Elt F) → (⟨S480000, .i32⟩ : BufTy).Contents (Elt F)),
    ternary main_v3 main_v5 main_arg1 main_v6 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v6 main_v7 (broadcastInDim S480000x1 ![0] bcast_S480000_S480000x1_0 : (⟨S480000, .i32⟩ : BufTy).Contents (Elt F) → (⟨S480000x1, .i32⟩ : BufTy).Contents (Elt F)),
    binary main_v0 main_v7 main_v8 ((fun x i => Host.gather gather_S30000x512_S480000x1_S480000x512_1_0_n_n_0_1_1512 x i) : (⟨S30000x512, .f32⟩ : BufTy).Contents (Elt F) → (⟨S480000x1, .i32⟩ : BufTy).Contents (Elt F) → (⟨S480000x512, .f32⟩ : BufTy).Contents (Elt F)),
    unary main_v1 main_v9 (broadcastInDim S480000x512 ![0, 1] bcast_S480000x1_S480000x512_0_1 : (⟨S480000x1, .f32⟩ : BufTy).Contents (Elt F) → (⟨S480000x512, .f32⟩ : BufTy).Contents (Elt F)),
    binary main_v9 main_v8 main_v10 (mulf : (⟨S480000x512, .f32⟩ : BufTy).Contents (Elt F) → (⟨S480000x512, .f32⟩ : BufTy).Contents (Elt F) → (⟨S480000x512, .f32⟩ : BufTy).Contents (Elt F)),
    nullary main_cst (constant S_ .f32 0x00000000#32),
    unary main_cst main_v11 (broadcastInDim S30000x512 ![] bcast_S_S30000x512 : (⟨S_, .f32⟩ : BufTy).Contents (Elt F) → (⟨S30000x512, .f32⟩ : BufTy).Contents (Elt F)),
    unary main_arg2 main_v12 (broadcastInDim S480000x1 ![0] bcast_S480000_S480000x1_0 : (⟨S480000, .i32⟩ : BufTy).Contents (Elt F) → (⟨S480000x1, .i32⟩ : BufTy).Contents (Elt F)),
    ternary main_v11 main_v12 main_v10 main_v13 ((fun x i u => Host.scatterAdd scatter_S30000x512_S480000x1_S480000x512_1_0_0_1 x i u) : (⟨S30000x512, .f32⟩ : BufTy).Contents (Elt F) → (⟨S480000x1, .i32⟩ : BufTy).Contents (Elt F) → (⟨S480000x512, .f32⟩ : BufTy).Contents (Elt F) → (⟨S30000x512, .f32⟩ : BufTy).Contents (Elt F)),
    unary main_arg5 main_v14 (broadcastInDim S1x512 ![1] bcast_S512_S1x512_1 : (⟨S512, .f32⟩ : BufTy).Contents (Elt F) → (⟨S1x512, .f32⟩ : BufTy).Contents (Elt F)),
    unary main_v14 main_v15 (broadcastInDim S30000x512 ![0, 1] bcast_S1x512_S30000x512_0_1 : (⟨S1x512, .f32⟩ : BufTy).Contents (Elt F) → (⟨S30000x512, .f32⟩ : BufTy).Contents (Elt F)),
    binary main_v13 main_v15 main_v16 (addf : (⟨S30000x512, .f32⟩ : BufTy).Contents (Elt F) → (⟨S30000x512, .f32⟩ : BufTy).Contents (Elt F) → (⟨S30000x512, .f32⟩ : BufTy).Contents (Elt F)),
    nullary main_cst_1 (constant S_ .f32 0x3DCCCCCD#32),
    TRef.nullary main_call0.cst (constant S_ .f32 0x00000000#32),
    TRef.unary main_call0.cst main_call0.v0 (broadcastInDim S30000x512 ![] bcast_S_S30000x512),
    TRef.binary (.of main_v16 : TRef sig ⟨S30000x512, .f32⟩) main_call0.v0 main_call0.v1 (cmpf .oge),
    TRef.unary (.of main_cst_1 : TRef sig ⟨S_, .f32⟩) main_call0.v2 id,
    TRef.unary main_call0.v2 main_call0.v3 (broadcastInDim S30000x512 ![] bcast_S_S30000x512),
    TRef.binary main_call0.v3 (.of main_v16 : TRef sig ⟨S30000x512, .f32⟩) main_call0.v4 mulf,
    TRef.ternary main_call0.v1 (.of main_v16 : TRef sig ⟨S30000x512, .f32⟩) main_call0.v4 main_call0.call0.v0 select,
    binary main_v17 main_arg6 main_v18 ((fun l r => Host.dotGeneral dot_S30000x512_S512x128_S30000x128_1_0_0_1_n_n none l r) : (⟨S30000x512, .f32⟩ : BufTy).Contents (Elt F) → (⟨S512x128, .f32⟩ : BufTy).Contents (Elt F) → (⟨S30000x128, .f32⟩ : BufTy).Contents (Elt F)),
    unary main_arg3 main_v19 (broadcastInDim S480000x1 ![0] bcast_S480000_S480000x1_0 : (⟨S480000, .f32⟩ : BufTy).Contents (Elt F) → (⟨S480000x1, .f32⟩ : BufTy).Contents (Elt F)),
    nullary main_c_2 (constantI S_ 32 0#32),
    unary main_c_2 main_v20 (broadcastInDim S480000 ![] bcast_S_S480000 : (⟨S_, .i32⟩ : BufTy).Contents (Elt F) → (⟨S480000, .i32⟩ : BufTy).Contents (Elt F)),
    binary main_arg1 main_v20 main_v21 (cmpi .slt : (⟨S480000, .i32⟩ : BufTy).Contents (Elt F) → (⟨S480000, .i32⟩ : BufTy).Contents (Elt F) → (⟨S480000, .i1⟩ : BufTy).Contents (Elt F)),
    nullary main_c_3 (constantI S_ 32 30000#32),
    unary main_c_3 main_v22 (broadcastInDim S480000 ![] bcast_S_S480000 : (⟨S_, .i32⟩ : BufTy).Contents (Elt F) → (⟨S480000, .i32⟩ : BufTy).Contents (Elt F)),
    binary main_arg1 main_v22 main_v23 (addi : (⟨S480000, .i32⟩ : BufTy).Contents (Elt F) → (⟨S480000, .i32⟩ : BufTy).Contents (Elt F) → (⟨S480000, .i32⟩ : BufTy).Contents (Elt F)),
    ternary main_v21 main_v23 main_arg1 main_v24 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v24 main_v25 (broadcastInDim S480000x1 ![0] bcast_S480000_S480000x1_0 : (⟨S480000, .i32⟩ : BufTy).Contents (Elt F) → (⟨S480000x1, .i32⟩ : BufTy).Contents (Elt F)),
    binary main_v18 main_v25 main_v26 ((fun x i => Host.gather gather_S30000x128_S480000x1_S480000x128_1_0_n_n_0_1_1128 x i) : (⟨S30000x128, .f32⟩ : BufTy).Contents (Elt F) → (⟨S480000x1, .i32⟩ : BufTy).Contents (Elt F) → (⟨S480000x128, .f32⟩ : BufTy).Contents (Elt F)),
    unary main_v19 main_v27 (broadcastInDim S480000x128 ![0, 1] bcast_S480000x1_S480000x128_0_1 : (⟨S480000x1, .f32⟩ : BufTy).Contents (Elt F) → (⟨S480000x128, .f32⟩ : BufTy).Contents (Elt F)),
    binary main_v27 main_v26 main_v28 (mulf : (⟨S480000x128, .f32⟩ : BufTy).Contents (Elt F) → (⟨S480000x128, .f32⟩ : BufTy).Contents (Elt F) → (⟨S480000x128, .f32⟩ : BufTy).Contents (Elt F)),
    nullary main_cst_4 (constant S_ .f32 0x00000000#32),
    unary main_cst_4 main_v29 (broadcastInDim S30000x128 ![] bcast_S_S30000x128 : (⟨S_, .f32⟩ : BufTy).Contents (Elt F) → (⟨S30000x128, .f32⟩ : BufTy).Contents (Elt F)),
    unary main_arg2 main_v30 (broadcastInDim S480000x1 ![0] bcast_S480000_S480000x1_0 : (⟨S480000, .i32⟩ : BufTy).Contents (Elt F) → (⟨S480000x1, .i32⟩ : BufTy).Contents (Elt F)),
    ternary main_v29 main_v30 main_v28 main_v31 ((fun x i u => Host.scatterAdd scatter_S30000x128_S480000x1_S480000x128_1_0_0_1 x i u) : (⟨S30000x128, .f32⟩ : BufTy).Contents (Elt F) → (⟨S480000x1, .i32⟩ : BufTy).Contents (Elt F) → (⟨S480000x128, .f32⟩ : BufTy).Contents (Elt F) → (⟨S30000x128, .f32⟩ : BufTy).Contents (Elt F)),
    unary main_arg7 main_v32 (broadcastInDim S1x128 ![1] bcast_S128_S1x128_1 : (⟨S128, .f32⟩ : BufTy).Contents (Elt F) → (⟨S1x128, .f32⟩ : BufTy).Contents (Elt F)),
    unary main_v32 main_v33 (broadcastInDim S30000x128 ![0, 1] bcast_S1x128_S30000x128_0_1 : (⟨S1x128, .f32⟩ : BufTy).Contents (Elt F) → (⟨S30000x128, .f32⟩ : BufTy).Contents (Elt F)),
    binary main_v31 main_v33 main_v34 (addf : (⟨S30000x128, .f32⟩ : BufTy).Contents (Elt F) → (⟨S30000x128, .f32⟩ : BufTy).Contents (Elt F) → (⟨S30000x128, .f32⟩ : BufTy).Contents (Elt F)),
    nullary main_cst_5 (constant S_ .f32 0x3DCCCCCD#32),
    TRef.nullary main_call1.cst (constant S_ .f32 0x00000000#32),
    TRef.unary main_call1.cst main_call1.v0 (broadcastInDim S30000x128 ![] bcast_S_S30000x128),
    TRef.binary (.of main_v34 : TRef sig ⟨S30000x128, .f32⟩) main_call1.v0 main_call1.v1 (cmpf .oge),
    TRef.unary (.of main_cst_5 : TRef sig ⟨S_, .f32⟩) main_call1.v2 id,
    TRef.unary main_call1.v2 main_call1.v3 (broadcastInDim S30000x128 ![] bcast_S_S30000x128),
    TRef.binary main_call1.v3 (.of main_v34 : TRef sig ⟨S30000x128, .f32⟩) main_call1.v4 mulf,
    TRef.ternary main_call1.v1 (.of main_v34 : TRef sig ⟨S30000x128, .f32⟩) main_call1.v4 main_call1.call0.v0 select,
    binary main_v35 main_arg8 main_v36 ((fun l r => Host.dotGeneral dot_S30000x128_S128x7_S30000x7_1_0_0_1_n_n none l r) : (⟨S30000x128, .f32⟩ : BufTy).Contents (Elt F) → (⟨S128x7, .f32⟩ : BufTy).Contents (Elt F) → (⟨S30000x7, .f32⟩ : BufTy).Contents (Elt F)),
    unary main_arg9 main_v37 (broadcastInDim S1x7 ![1] bcast_S7_S1x7_1 : (⟨S7, .f32⟩ : BufTy).Contents (Elt F) → (⟨S1x7, .f32⟩ : BufTy).Contents (Elt F)),
    unary main_v37 main_v38 (broadcastInDim S30000x7 ![0, 1] bcast_S1x7_S30000x7_0_1 : (⟨S1x7, .f32⟩ : BufTy).Contents (Elt F) → (⟨S30000x7, .f32⟩ : BufTy).Contents (Elt F)),
    binary main_v36 main_v38 main_v39 (addf : (⟨S30000x7, .f32⟩ : BufTy).Contents (Elt F) → (⟨S30000x7, .f32⟩ : BufTy).Contents (Elt F) → (⟨S30000x7, .f32⟩ : BufTy).Contents (Elt F)) ]

-- sixty binds re-associated: the rewrite under the chain recurses once per statement
set_option maxRecDepth 2048 in
/-- @main is that straight line: the callees' definitions unfolded at their calls and the records at their fields,
    both sides are one chain of `hlo` steps once sequencing is reassociated. -/
theorem main_eq (c : Dev nD) : main (F := F) c = seq ops := by
  simp only [main, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-! ## What the line leaves in the result and the arguments -/

attribute [local irreducible] Host.gather Host.scatterAdd in
set_option maxRecDepth 8192 in
/-- The fold at the result buffer is `out` of the arguments' contents: each operation's result at its own buffer is
    its function's value at its operands' contents, at any other buffer what was there; the typed references' casts
    are the identity at these literal references. The gather and the scatter are kept folded: the equation never
    looks inside them. -/
theorem out_eq (V : Valuation τ sig (Elt F)) :
    after ops V (main_v39 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- On every device, for any float values, from any memory with zero counters: every weakly fair execution of @main
    terminates with the result buffer at `out` of the launch contents of the ten arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.LibHostLayer.lean ====
/-
  The host's spelling of a dense layer, read at the exact (extended-real) values.

  The host computes a leaky rectifier as a select between `v` and `slope · v` on the comparison `v ≥ 0` against a
  broadcast zero, and adds a bias vector `b : [D]` to every row of an `[M, D]` array by broadcasting it twice,
  `[D] → [1, D] → [M, D]`.  Index by index these are the rectifier of the dense layer (the `≥` and `>` spellings agree,
  because `slope · 0 = 0`) and the bias row `b` cast to `[1, D]`; the host's matrix product is the plain product.  So
  the host's layer is the function
      out (i, j) = (∑ k, φ (agg (i, k) + b k) · w (k, j)) + b' j.
-/
import proofs.«145313_j19756849561729_2_alg».proof.Proof.LibDenseLayer
import Idealize.ShloMosaic.Lib.ValueLayout
import Idealize.ShloMosaic.Lib.Pipeline.Value

noncomputable section

namespace Cert.Lib.HostLayer

open Idealize.ShloMosaic Idealize.ShloMosaic.ValueIdx Cert.Lib.PlainDot Cert.Lib.DenseLayer

/-- The rank-0 shape. -/
abbrev S0 : Shape := ⟨0, ![]⟩

/-- The host's leaky rectifier: `v` where `v ≥ 0` (against a broadcast zero), else the broadcast slope times `v`. -/
def hostLrelu {M D : Nat} (h0 : S0.BroadcastsInDim ⟨2, ![M, D]⟩ (![] : Fin 0 → Fin 2)) (sl : BitVec 32)
    (v : FVec Ideal ⟨2, ![M, D]⟩ .f32) : FVec Ideal ⟨2, ![M, D]⟩ .f32 :=
  select (cmpf .oge v (broadcastInDim (s := S0) ⟨2, ![M, D]⟩ ![] h0 (constant (F := Ideal) S0 .f32 0x00000000#32))) v
    (mulf (broadcastInDim (s := S0) ⟨2, ![M, D]⟩ ![] h0 (id (constant (F := Ideal) S0 .f32 sl))) v)

/-- A bias vector broadcast over the rows, the host's way: `[D] → [1, D] → [M, D]`. -/
def rowBias {M D : Nat} (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (b : FVec Ideal ⟨1, ![D]⟩ .f32) : FVec Ideal ⟨2, ![M, D]⟩ .f32 :=
  broadcastInDim ⟨2, ![M, D]⟩ ![0, 1] h2 (broadcastInDim ⟨2, ![1, D]⟩ ![1] h1 b)

/-- The broadcast bias at `(p, q)` is the vector at `q`: the first broadcast reads the vector's coordinate off the
    second axis, the second reads the one row whatever the row coordinate (if `D = 1` the coordinate `q` is `0`
    anyway). -/
theorem rowBias_apply {M D : Nat} (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (b : FVec Ideal ⟨1, ![D]⟩ .f32) (p : Fin M) (q : Fin D) : rowBias h1 h2 b (ix2 p q) = b (ix1 q) := by
  unfold rowBias
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if D = 1 then 0 else q.val
      split
      · have := q.isLt; omega
      · rfl
  · match a with
    | ⟨0, _⟩ =>
      show q.val = if D = 1 then 0 else q.val
      split
      · have := q.isLt; omega
      · rfl

/-- The activation: the host's rectifier of `agg` plus the broadcast bias is `actGt` at the slope's value of `agg` and
    the bias cast to one row. At `(p, q)` both sides select between `x = agg (p, q) + b q` and `slope · x`, one on
    `x ≥ 0` and the other on `x > 0`. -/
theorem host_act {M D : Nat} (h0 : S0.BroadcastsInDim ⟨2, ![M, D]⟩ (![] : Fin 0 → Fin 2))
    (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (hsc : (⟨1, ![D]⟩ : Shape).ShapeCasts ⟨2, ![1, D]⟩) (sl : BitVec 32) (agg : FVec Ideal ⟨2, ![M, D]⟩ .f32)
    (b : FVec Ideal ⟨1, ![D]⟩ .f32) :
    hostLrelu h0 sl (addf agg (rowBias h1 h2 b)) = actGt (Ideal.ofBits .f32 sl) agg (shapeCast ⟨2, ![1, D]⟩ b hsc) := by
  funext i
  obtain ⟨p, q, rfl⟩ : ∃ (p : Fin M) (q : Fin D), i = ix2 p q := ⟨i 0, i 1, eq_ix2 i⟩
  show Scalar.select (Ideal.cmp .oge (agg (ix2 p q) + rowBias h1 h2 b (ix2 p q)) (Ideal.ofBits .f32 0x00000000#32))
      (agg (ix2 p q) + rowBias h1 h2 b (ix2 p q))
      (Ideal.ofBits .f32 sl * (agg (ix2 p q) + rowBias h1 h2 b (ix2 p q)))
    = lreluGt (Ideal.ofBits .f32 sl) (agg (ix2 p q) + shapeCast ⟨2, ![1, D]⟩ b hsc (ix2 (0 : Fin 1) q))
  rw [rowBias_apply, Ideal.ofBits_zero_f32, shapeCast_a_1a_apply, lreluGt_eq_lreluGe]
  rfl

/-- The last layer: the product of the activation with the weights plus the output bias broadcast over the rows. -/
theorem host_layer {M D N : Nat} (h0 : S0.BroadcastsInDim ⟨2, ![M, D]⟩ (![] : Fin 0 → Fin 2))
    (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (h1' : (⟨1, ![N]⟩ : Shape).BroadcastsInDim ⟨2, ![1, N]⟩ (![1] : Fin 1 → Fin 2))
    (h2' : (⟨2, ![1, N]⟩ : Shape).BroadcastsInDim ⟨2, ![M, N]⟩ (![0, 1] : Fin 2 → Fin 2))
    (hsc : (⟨1, ![D]⟩ : Shape).ShapeCasts ⟨2, ![1, D]⟩) (hsc' : (⟨1, ![N]⟩ : Shape).ShapeCasts ⟨2, ![1, N]⟩)
    (sl : BitVec 32) (agg : FVec Ideal ⟨2, ![M, D]⟩ .f32) (b : FVec Ideal ⟨1, ![D]⟩ .f32)
    (w : FVec Ideal ⟨2, ![D, N]⟩ .f32) (b' : FVec Ideal ⟨1, ![N]⟩ .f32) :
    addf (Host.dotGeneral (F := Ideal) (DotDims.plain M D N) none (hostLrelu h0 sl (addf agg (rowBias h1 h2 b))) w)
        (rowBias h1' h2' b')
      = layer (Ideal.ofBits .f32 sl) agg (shapeCast ⟨2, ![1, D]⟩ b hsc) w (shapeCast ⟨2, ![1, N]⟩ b' hsc') := by
  rw [host_act h0 h1 h2 hsc, Cert.Lib.PlainDot.dotGeneral]
  funext j
  obtain ⟨p, q, rfl⟩ : ∃ (p : Fin M) (q : Fin N), j = ix2 p q := ⟨j 0, j 1, eq_ix2 j⟩
  show mm (actGt (Ideal.ofBits .f32 sl) agg (shapeCast ⟨2, ![1, D]⟩ b hsc)) w (ix2 p q) + rowBias h1' h2' b' (ix2 p q)
    = mm (actGt (Ideal.ofBits .f32 sl) agg (shapeCast ⟨2, ![1, D]⟩ b hsc)) w (ix2 p q)
      + shapeCast ⟨2, ![1, N]⟩ b' hsc' (ix2 (0 : Fin 1) q)
  rw [rowBias_apply, shapeCast_a_1a_apply]

/-- A middle layer, which on the host has no output bias, against a layer whose output bias is a zero row:
    `x + 0 = x` on the extended reals. -/
theorem host_layer_zero {M D N : Nat} (h0 : S0.BroadcastsInDim ⟨2, ![M, D]⟩ (![] : Fin 0 → Fin 2))
    (h1 : (⟨1, ![D]⟩ : Shape).BroadcastsInDim ⟨2, ![1, D]⟩ (![1] : Fin 1 → Fin 2))
    (h2 : (⟨2, ![1, D]⟩ : Shape).BroadcastsInDim ⟨2, ![M, D]⟩ (![0, 1] : Fin 2 → Fin 2))
    (hz : S0.BroadcastsInDim ⟨1, ![N]⟩ (![] : Fin 0 → Fin 1))
    (hsc : (⟨1, ![D]⟩ : Shape).ShapeCasts ⟨2, ![1, D]⟩) (hsc' : (⟨1, ![N]⟩ : Shape).ShapeCasts ⟨2, ![1, N]⟩)
    (sl : BitVec 32) (agg : FVec Ideal ⟨2, ![M, D]⟩ .f32) (b : FVec Ideal ⟨1, ![D]⟩ .f32)
    (w : FVec Ideal ⟨2, ![D, N]⟩ .f32) :
    Host.dotGeneral (F := Ideal) (DotDims.plain M D N) none (hostLrelu h0 sl (addf agg (rowBias h1 h2 b))) w
      = layer (Ideal.ofBits .f32 sl) agg (shapeCast ⟨2, ![1, D]⟩ b hsc) w
          (shapeCast ⟨2, ![1, N]⟩
            (broadcastInDim (s := S0) ⟨1, ![N]⟩ ![] hz (constant (F := Ideal) S0 .f32 0x00000000#32)) hsc') := by
  rw [host_act h0 h1 h2 hsc, Cert.Lib.PlainDot.dotGeneral]
  funext j
  obtain ⟨p, q, rfl⟩ : ∃ (p : Fin M) (q : Fin N), j = ix2 p q := ⟨j 0, j 1, eq_ix2 j⟩
  show mm (actGt (Ideal.ofBits .f32 sl) agg (shapeCast ⟨2, ![1, D]⟩ b hsc)) w (ix2 p q)
    = mm (actGt (Ideal.ofBits .f32 sl) agg (shapeCast ⟨2, ![1, D]⟩ b hsc)) w (ix2 p q)
      + shapeCast ⟨2, ![1, N]⟩
          (broadcastInDim (s := S0) ⟨1, ![N]⟩ ![] hz (constant (F := Ideal) S0 .f32 0x00000000#32)) hsc'
          (ix2 (0 : Fin 1) q)
  rw [shapeCast_a_1a_apply]
  show _ = _ + Ideal.ofBits .f32 0x00000000#32
  rw [Ideal.ofBits_zero_f32, add_zero]

end Cert.Lib.HostLayer

end
-- ==== Proof.Bridge.lean ====
/-
  The two programs compute one function.  Reading the reference's term from the inside out:
  its first `dot_general` is the matrix product the first kernel region leaves; its neighbour sums are the kernel
  program's (the same gather, scale and scatter-add; the kernel's widening of the gathered rows is the identity at the
  exact values); its second `dot_general` of the rectified, biased sum is the dense layer the second region leaves, whose
  output bias is a zero row (x + 0 = x); its last `dot_general` plus the output bias is the dense layer the third region
  leaves.  The host rectifies with `v ≥ 0`, the kernel with `v > 0`: one function, since slope · 0 = 0.
-/
import proofs.«145313_j19756849561729_2_alg».proof.Proof.KValue
import proofs.«145313_j19756849561729_2_alg».proof.Proof.RefRun
import proofs.«145313_j19756849561729_2_alg».proof.Proof.LibHostLayer

set_option maxRecDepth 16384

noncomputable section

namespace Cert.Proof.Bridge

open Idealize.ShloMosaic Idealize.ShloMosaic.TcCoe Idealize.SL.Sem
open Cert.Lib.PlainDot Cert.Lib.DenseLayer Cert.Lib.HostLayer
open Cert.KernelIdeal.Hand (kspmm512 kspmm128 slope kout)
open Cert.ReferenceIdeal.RefRun (spmm512 spmm128 lrelu512 lrelu128)

/-- The first product. -/
theorem dot1_eq (x : (FVec Ideal (⟨2, ![30000, 1433]⟩ : Shape) .f32)) (W1 : (FVec Ideal (⟨2, ![1433, 512]⟩ : Shape) .f32)) :
    Host.dotGeneral (F := Ideal) Cert.ReferenceIdeal.dot_S30000x1433_S1433x512_S30000x512_1_0_0_1_n_n none x W1
      = mm (M := 30000) (K := 1433) (N := 512) x W1 :=
  Cert.Lib.PlainDot.dotGeneral (M := 30000) (K := 1433) (N := 512) none x W1

attribute [local irreducible] Host.gather Host.scatterAdd in
/-- The neighbour sum into 512 columns is the same on both sides. -/
theorem spmm512_eq (src dst : (IVec (⟨1, ![480000]⟩ : Shape) 32)) (ew : (FVec Ideal (⟨1, ![480000]⟩ : Shape) .f32)) (h : (FVec Ideal (⟨2, ![30000, 512]⟩ : Shape) .f32)) :
    spmm512 (F := Ideal) src dst ew h = kspmm512 (F := Ideal) src dst ew h := rfl

attribute [local irreducible] Host.gather Host.scatterAdd in
/-- The neighbour sum into 128 columns is the same on both sides. -/
theorem spmm128_eq (src dst : (IVec (⟨1, ![480000]⟩ : Shape) 32)) (ew : (FVec Ideal (⟨1, ![480000]⟩ : Shape) .f32)) (h : (FVec Ideal (⟨2, ![30000, 128]⟩ : Shape) .f32)) :
    spmm128 (F := Ideal) src dst ew h = kspmm128 (F := Ideal) src dst ew h := rfl

/-- The reference's middle layer is the dense layer with a zero output-bias row. -/
theorem layer1_eq (agg : (FVec Ideal (⟨2, ![30000, 512]⟩ : Shape) .f32)) (b1 : (FVec Ideal (⟨1, ![512]⟩ : Shape) .f32)) (W2 : (FVec Ideal (⟨2, ![512, 128]⟩ : Shape) .f32)) :
    Host.dotGeneral (F := Ideal) (φ₁ := .f32) (φ₂ := .f32) Cert.ReferenceIdeal.dot_S30000x512_S512x128_S30000x128_1_0_0_1_n_n none
        (lrelu512 (F := Ideal) (addf agg (broadcastInDim Cert.ReferenceIdeal.S30000x512 ![0, 1] Cert.ReferenceIdeal.Gen.bcast_S1x512_S30000x512_0_1
          (broadcastInDim Cert.ReferenceIdeal.S1x512 ![1] Cert.ReferenceIdeal.Gen.bcast_S512_S1x512_1 b1)))) W2
      = layer (M := 30000) (D := 512) (N := 128) slope agg (shapeCast ⟨2, ![1, 512]⟩ b1 Cert.KernelIdeal.Gen.shapeCasts_S512_S1x512) W2 (shapeCast ⟨2, ![1, 128]⟩ (broadcastInDim (s := (⟨0, ![]⟩ : Shape)) ⟨1, ![128]⟩ ![] Cert.KernelIdeal.Gen.bcast_S_S128 (constant (F := Ideal) (⟨0, ![]⟩ : Shape) .f32 0x00000000#32)) Cert.KernelIdeal.Gen.shapeCasts_S128_S1x128) :=
  host_layer_zero (M := 30000) (D := 512) (N := 128) Cert.ReferenceIdeal.Gen.bcast_S_S30000x512 Cert.ReferenceIdeal.Gen.bcast_S512_S1x512_1
    Cert.ReferenceIdeal.Gen.bcast_S1x512_S30000x512_0_1 Cert.KernelIdeal.Gen.bcast_S_S128 Cert.KernelIdeal.Gen.shapeCasts_S512_S1x512 Cert.KernelIdeal.Gen.shapeCasts_S128_S1x128
    0x3DCCCCCD#32 agg b1 W2

/-- The reference's last layer is the dense layer with the read-out bias. -/
theorem layer2_eq (agg : (FVec Ideal (⟨2, ![30000, 128]⟩ : Shape) .f32)) (b2 : (FVec Ideal (⟨1, ![128]⟩ : Shape) .f32)) (Wl : (FVec Ideal (⟨2, ![128, 7]⟩ : Shape) .f32)) (bl : (FVec Ideal (⟨1, ![7]⟩ : Shape) .f32)) :
    addf (Host.dotGeneral (F := Ideal) (φ₁ := .f32) (φ₂ := .f32) Cert.ReferenceIdeal.dot_S30000x128_S128x7_S30000x7_1_0_0_1_n_n none
        (lrelu128 (F := Ideal) (addf agg (broadcastInDim Cert.ReferenceIdeal.S30000x128 ![0, 1] Cert.ReferenceIdeal.Gen.bcast_S1x128_S30000x128_0_1
          (broadcastInDim Cert.ReferenceIdeal.S1x128 ![1] Cert.ReferenceIdeal.Gen.bcast_S128_S1x128_1 b2)))) Wl)
      (broadcastInDim Cert.ReferenceIdeal.S30000x7 ![0, 1] Cert.ReferenceIdeal.Gen.bcast_S1x7_S30000x7_0_1 (broadcastInDim Cert.ReferenceIdeal.S1x7 ![1] Cert.ReferenceIdeal.Gen.bcast_S7_S1x7_1 bl))
      = layer (M := 30000) (D := 128) (N := 7) slope agg (shapeCast ⟨2, ![1, 128]⟩ b2 Cert.KernelIdeal.Gen.shapeCasts_S128_S1x128) Wl
          (shapeCast ⟨2, ![1, 7]⟩ bl Cert.KernelIdeal.Gen.shapeCasts_S7_S1x7) :=
  host_layer (M := 30000) (D := 128) (N := 7) Cert.ReferenceIdeal.Gen.bcast_S_S30000x128 Cert.ReferenceIdeal.Gen.bcast_S128_S1x128_1
    Cert.ReferenceIdeal.Gen.bcast_S1x128_S30000x128_0_1 Cert.ReferenceIdeal.Gen.bcast_S7_S1x7_1 Cert.ReferenceIdeal.Gen.bcast_S1x7_S30000x7_0_1
    Cert.KernelIdeal.Gen.shapeCasts_S128_S1x128 Cert.KernelIdeal.Gen.shapeCasts_S7_S1x7 0x3DCCCCCD#32 agg b2 Wl bl

/-- The reference's term is the kernel program's term, for any ten arrays. -/
theorem out_eq (x : (FVec Ideal (⟨2, ![30000, 1433]⟩ : Shape) .f32)) (src dst : (IVec (⟨1, ![480000]⟩ : Shape) 32)) (ew : (FVec Ideal (⟨1, ![480000]⟩ : Shape) .f32)) (W1 : (FVec Ideal (⟨2, ![1433, 512]⟩ : Shape) .f32))
    (b1 : (FVec Ideal (⟨1, ![512]⟩ : Shape) .f32)) (W2 : (FVec Ideal (⟨2, ![512, 128]⟩ : Shape) .f32)) (b2 : (FVec Ideal (⟨1, ![128]⟩ : Shape) .f32)) (Wl : (FVec Ideal (⟨2, ![128, 7]⟩ : Shape) .f32)) (bl : (FVec Ideal (⟨1, ![7]⟩ : Shape) .f32)) :
    Cert.ReferenceIdeal.RefRun.out (F := Ideal) x src dst ew W1 b1 W2 b2 Wl bl
      = layer (M := 30000) (D := 128) (N := 7) slope
          (kspmm128 (F := Ideal) src dst ew
            (layer (M := 30000) (D := 512) (N := 128) slope
              (kspmm512 (F := Ideal) src dst ew (mm (M := 30000) (K := 1433) (N := 512) x W1))
              (shapeCast ⟨2, ![1, 512]⟩ b1 Cert.KernelIdeal.Gen.shapeCasts_S512_S1x512) W2 (shapeCast ⟨2, ![1, 128]⟩ (broadcastInDim (s := (⟨0, ![]⟩ : Shape)) ⟨1, ![128]⟩ ![] Cert.KernelIdeal.Gen.bcast_S_S128 (constant (F := Ideal) (⟨0, ![]⟩ : Shape) .f32 0x00000000#32)) Cert.KernelIdeal.Gen.shapeCasts_S128_S1x128)))
          (shapeCast ⟨2, ![1, 128]⟩ b2 Cert.KernelIdeal.Gen.shapeCasts_S128_S1x128) Wl (shapeCast ⟨2, ![1, 7]⟩ bl Cert.KernelIdeal.Gen.shapeCasts_S7_S1x7) := by
  unfold Cert.ReferenceIdeal.RefRun.out
  rw [dot1_eq, spmm512_eq, layer1_eq, spmm128_eq, layer2_eq]

/-- At the kernel program's launch memory: the reference's term of the argument arrays is the kernel program's result. -/
theorem out_eq_kout (m : (ℓ : Loc Cert.KernelIdeal.nD Cert.KernelIdeal.τ Cert.KernelIdeal.sig) → Buf (Elt Ideal) ℓ) (c : Dev Cert.KernelIdeal.nD) :
    Cert.ReferenceIdeal.RefRun.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = kout m c := by
  unfold kout
  exact out_eq _ _ _ _ _ _ _ _ _ _

end Cert.Proof.Bridge

end
-- ==== Proof.lean ====
/-
  A two-layer graph network with a linear read-out, over the extended reals.  With `A` the sparse matrix that holds
  weight `w e` at row `dst e`, column `src e` for every edge `e` (entries at one position added), both programs compute
      out = φ (A (φ (A (x W₁) + b₁) W₂) + b₂) Wₗ + bₗ,      φ v = v for v above zero, v / 10 (the nearest float's value) below.
  The kernel program computes the three dense products in three kernel regions, each over 25 blocks of 1200 rows with
  the weights resident, the bias and φ of a layer fused in front of the NEXT product, and keeps the two sparse products
  `A ·` as host operations between the regions; the reference computes everything with host operations.

  * The three frame claims: the two kernel programs' frames are the generated ones; the reference's is its run (the
    module RefRun: @main's operations with the two outlined rectifier calls inlined) with the result dropped.
  * `preserves`: the idealization rewrote nothing.
  * `algebraic`: the kernel program's run names its result buffer at the last segment boundary (KRun), whose contents
    there are one term of the ten arguments (KValue: host stretches read as functions, KHost; each region's result
    array as the whole-array product or dense layer of the arrays it was entered with, KBlock0–2 over the bodies'
    payloads KPay), and that term is the reference's (Bridge: a row block of a product is the product of the row block;
    `>` and `≥` rectifiers agree since slope · 0 = 0; x + 0 = x; format changes are the identity at the exact values).
-/
import proofs.«145313_j19756849561729_2_alg».proof.Defs
import proofs.«145313_j19756849561729_2_alg».proof.Proof.Gen.Kernel
import proofs.«145313_j19756849561729_2_alg».proof.Proof.Gen.Kernel.Skeleton
import proofs.«145313_j19756849561729_2_alg».proof.Proof.Gen.Kernel.Launch
import proofs.«145313_j19756849561729_2_alg».proof.Proof.Gen.Kernel.Points
import proofs.«145313_j19756849561729_2_alg».proof.Proof.Gen.Kernel.Frame
import proofs.«145313_j19756849561729_2_alg».proof.Proof.Gen.KernelIdeal
import proofs.«145313_j19756849561729_2_alg».proof.Proof.Gen.KernelIdeal.Skeleton
import proofs.«145313_j19756849561729_2_alg».proof.Proof.Gen.KernelIdeal.Launch
import proofs.«145313_j19756849561729_2_alg».proof.Proof.Gen.KernelIdeal.Points
import proofs.«145313_j19756849561729_2_alg».proof.Proof.Gen.KernelIdeal.Frame
import proofs.«145313_j19756849561729_2_alg».proof.Proof.Gen.ReferenceIdeal
import proofs.«145313_j19756849561729_2_alg».proof.Proof.Gen.Pre_finite_inputs
import proofs.«145313_j19756849561729_2_alg».proof.Proof.KRun
import proofs.«145313_j19756849561729_2_alg».proof.Proof.KValue
import proofs.«145313_j19756849561729_2_alg».proof.Proof.RefRun
import proofs.«145313_j19756849561729_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the ten arguments both programs end with the same result: the kernel program's
    result buffer holds `kout` of its arguments, the reference's its own term of the same arrays, and the two terms
    are one function. -/
theorem algebraic : Cert.algebraic_KernelIdeal_ReferenceIdeal := by
  intro m ρ m' ρ' _ hagree
  refine ⟨fun c => Cert.KernelIdeal.Hand.kout m c, ?_, ?_⟩
  · exact (θ_run Cert.KernelIdeal.defs _ _).mono
      (fun _ h c => ⟨(h c).1.trans (Cert.KernelIdeal.Hand.W6_v38 m ρ c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.RefRun.run (F := Ideal) m' ρ')
    obtain ⟨g0, g1, g2, g3, g4, g5, g6, g7, g8, g9⟩ := hagree c
    rw [g0, g1, g2, g3, g4, g5, g6, g7, g8, g9]
    exact Cert.Proof.Bridge.out_eq_kout m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
